-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S100000 : Shape := ⟨1, ![100000]⟩
abbrev S50000 : Shape := ⟨1, ![50000]⟩
abbrev S2x600000 : Shape := ⟨2, ![2, 600000]⟩
abbrev S2x200000 : Shape := ⟨2, ![2, 200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S50000x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : IVec S100000 32) (main_arg15 : IVec S50000 32) (main_arg16 : IVec S2x600000 32) (main_arg17 : IVec S2x600000 32) (main_arg18 : IVec S2x200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S100000 : Shape := ⟨1, ![100000]⟩
abbrev S50000 : Shape := ⟨1, ![50000]⟩
abbrev S2x600000 : Shape := ⟨2, ![2, 600000]⟩
abbrev S2x200000 : Shape := ⟨2, ![2, 200000]⟩
abbrev S_ : Shape := ⟨0, ![]⟩
abbrev S100000x1 : Shape := ⟨2, ![100000, 1]⟩
abbrev S50000x1 : Shape := ⟨2, ![50000, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S8000x128 : Shape := ⟨2, ![8000, 128]⟩
abbrev S8000x1 : Shape := ⟨2, ![8000, 1]⟩
abbrev S8000 : Shape := ⟨1, ![8000]⟩

abbrev nBuf : Space → Nat
  | .hbm => 175
  | .vmem => 42
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128, .f32⟩
  | 14 => ⟨S100000, .i32⟩
  | 15 => ⟨S50000, .i32⟩
  | 16 => ⟨S2x600000, .i32⟩
  | 17 => ⟨S2x600000, .i32⟩
  | 18 => ⟨S2x200000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x128, .f32⟩
  | 37 => ⟨S1x600000, .i32⟩
  | 38 => ⟨S600000, .i32⟩
  | 39 => ⟨S_, .f32⟩
  | 40 => ⟨S600000, .f32⟩
  | 41 => ⟨S_, .f32⟩
  | 42 => ⟨S100000, .f32⟩
  | 43 => ⟨S600000x1, .i32⟩
  | 44 => ⟨S100000, .f32⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | 51 => ⟨S100000x1, .f32⟩
  | 52 => ⟨S1x600000, .i32⟩
  | 53 => ⟨S600000, .i32⟩
  | 54 => ⟨S_, .f32⟩
  | 55 => ⟨S600000, .f32⟩
  | 56 => ⟨S_, .f32⟩
  | 57 => ⟨S50000, .f32⟩
  | 58 => ⟨S600000x1, .i32⟩
  | 59 => ⟨S50000, .f32⟩
  | 60 => ⟨S_, .f32⟩
  | 61 => ⟨S50000, .f32⟩
  | 62 => ⟨S50000, .f32⟩
  | 63 => ⟨S_, .f32⟩
  | 64 => ⟨S50000, .f32⟩
  | 65 => ⟨S50000, .f32⟩
  | 66 => ⟨S50000x1, .f32⟩
  | 67 => ⟨S1x600000, .i32⟩
  | 68 => ⟨S600000, .i32⟩
  | 69 => ⟨S1x600000, .i32⟩
  | 70 => ⟨S600000, .i32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S_, .f32⟩
  | 81 => ⟨S100000x128, .f32⟩
  | 82 => ⟨S600000x1, .i32⟩
  | 83 => ⟨S100000x128, .f32⟩
  | 84 => ⟨S100000x128, .f32⟩
  | 85 => ⟨S100000x128, .f32⟩
  | 86 => ⟨S1x600000, .i32⟩
  | 87 => ⟨S600000, .i32⟩
  | 88 => ⟨S1x600000, .i32⟩
  | 89 => ⟨S600000, .i32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .f32⟩
  | 100 => ⟨S50000x128, .f32⟩
  | 101 => ⟨S600000x1, .i32⟩
  | 102 => ⟨S50000x128, .f32⟩
  | 103 => ⟨S50000x128, .f32⟩
  | 104 => ⟨S50000x128, .f32⟩
  | 105 => ⟨S1x128, .f32⟩
  | 106 => ⟨S100000x128, .f32⟩
  | 107 => ⟨S1x128, .f32⟩
  | 108 => ⟨S50000x128, .f32⟩
  | 109 => ⟨S1x600000, .i32⟩
  | 110 => ⟨S600000, .i32⟩
  | 111 => ⟨S1x600000, .i32⟩
  | 112 => ⟨S600000, .i32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S_, .f32⟩
  | 123 => ⟨S100000x128, .f32⟩
  | 124 => ⟨S600000x1, .i32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x600000, .i32⟩
  | 1 => ⟨S600000, .i32⟩
  | 2 => ⟨S1x600000, .i32⟩
  | 3 => ⟨S600000, .i32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S_, .f32⟩
  | 14 => ⟨S50000x128, .f32⟩
  | 15 => ⟨S600000x1, .i32⟩
  | 16 => ⟨S50000x128, .f32⟩
  | 17 => ⟨S50000x128, .f32⟩
  | 18 => ⟨S50000x128, .f32⟩
  | 19 => ⟨S1x128, .f32⟩
  | 20 => ⟨S100000x128, .f32⟩
  | 21 => ⟨S1x128, .f32⟩
  | 22 => ⟨S50000x128, .f32⟩
  | 23 => ⟨S1x200000, .i32⟩
  | 24 => ⟨S200000, .i32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000x128, .f32⟩
  | 34 => ⟨S1x200000, .i32⟩
  | 35 => ⟨S200000, .i32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x128, .f32⟩
  | 45 => ⟨S200000x1, .f32⟩
  | 46 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S8000x128, .f32⟩
  | .local _ .vmem, ⟨37, _⟩ => ⟨S8000x128, .f32⟩
  | .local _ .vmem, ⟨38, _⟩ => ⟨S8000x128, .f32⟩
  | .local _ .vmem, ⟨39, _⟩ => ⟨S8000x128, .f32⟩
  | .local _ .vmem, ⟨40, _⟩ => ⟨S8000x1, .f32⟩
  | .local _ .vmem, ⟨41, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_cst_7 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_cst_9 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_10 : Ref sig .tc := ⟨.hbm, 71, rfl⟩
abbrev main_v40 : Ref sig .tc := ⟨.hbm, 72, rfl⟩
abbrev main_v41 : Ref sig .tc := ⟨.hbm, 73, rfl⟩
abbrev main_c_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_13 : Ref sig .tc := ⟨.hbm, 90, rfl⟩
abbrev main_v56 : Ref sig .tc := ⟨.hbm, 91, rfl⟩
abbrev main_v57 : Ref sig .tc := ⟨.hbm, 92, rfl⟩
abbrev main_c_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_16 : Ref sig .tc := ⟨.hbm, 113, rfl⟩
abbrev main_v76 : Ref sig .tc := ⟨.hbm, 114, rfl⟩
abbrev main_v77 : Ref sig .tc := ⟨.hbm, 115, rfl⟩
abbrev main_c_17 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_18 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_19 : Ref sig .tc := ⟨.hbm, 132, rfl⟩
abbrev main_v92 : Ref sig .tc := ⟨.hbm, 133, rfl⟩
abbrev main_v93 : Ref sig .tc := ⟨.hbm, 134, rfl⟩
abbrev main_c_20 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_21 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_c_22 : Ref sig .tc := ⟨.hbm, 153, rfl⟩
abbrev main_v110 : Ref sig .tc := ⟨.hbm, 154, rfl⟩
abbrev main_v111 : Ref sig .tc := ⟨.hbm, 155, rfl⟩
abbrev main_c_23 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_c_24 : Ref sig .tc := ⟨.hbm, 164, rfl⟩
abbrev main_v119 : Ref sig .tc := ⟨.hbm, 165, rfl⟩
abbrev main_v120 : Ref sig .tc := ⟨.hbm, 166, rfl⟩
abbrev main_c_25 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_0_0 : S2x600000.Slices ![0, 0] S1x600000
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S200000x1_S200000 : S200000x1.ShapeCasts S200000
  gather_S100000x128_S100000x1_S100000x128_1_0_n_n_0_1_1128_wf : GatherDims.WF S100000x128 S100000x1 S100000x128 [1] [0] [] [0] [] 1 ![1, 128]
  gather_S50000x128_S50000x1_S50000x128_1_0_n_n_0_1_1128_wf : GatherDims.WF S50000x128 S50000x1 S50000x128 [1] [0] [] [0] [] 1 ![1, 128]
  scatter_S100000_S600000x1_S600000_n_0_0_1_wf : ScatterDims.WF S100000 S600000x1 S600000 [] [0] [0] 1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S200000x128.size a
  hwx4_0 : ∀ i : grid4.Coords, EltTy.bits .f32 = 32 ∨ (Rect.block (s := S200000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S200000x128.size a
  hwx4_1 : ∀ i : grid4.Coords, EltTy.bits .f32 = 32 ∨ (Rect.block (s := S200000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S200000x1.size a
  hwx4_2 : ∀ i : grid4.Coords, EltTy.bits .f32 = 32 ∨ (Rect.block (s := S200000x1) S8000x1.size (cc4_transform_2 i) (hinb4_2 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_v51) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v69) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v67) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v87) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v104) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v105) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v103) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v106) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v107) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v116) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v125) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v126) S8000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S100000 : Shape := ⟨1, ![100000]⟩
abbrev S50000 : Shape := ⟨1, ![50000]⟩
abbrev S2x600000 : Shape := ⟨2, ![2, 600000]⟩
abbrev S2x200000 : Shape := ⟨2, ![2, 200000]⟩
abbrev S_ : Shape := ⟨0, ![]⟩
abbrev S100000x1 : Shape := ⟨2, ![100000, 1]⟩
abbrev S50000x1 : Shape := ⟨2, ![50000, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 208
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128, .f32⟩
  | 14 => ⟨S100000, .i32⟩
  | 15 => ⟨S50000, .i32⟩
  | 16 => ⟨S2x600000, .i32⟩
  | 17 => ⟨S2x600000, .i32⟩
  | 18 => ⟨S2x200000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x128, .f32⟩
  | 37 => ⟨S1x600000, .i32⟩
  | 38 => ⟨S600000, .i32⟩
  | 39 => ⟨S1x600000, .i32⟩
  | 40 => ⟨S600000, .i32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .f32⟩
  | 51 => ⟨S100000x128, .f32⟩
  | 52 => ⟨S600000x1, .i32⟩
  | 53 => ⟨S100000x128, .f32⟩
  | 54 => ⟨S_, .f32⟩
  | 55 => ⟨S600000, .f32⟩
  | 56 => ⟨S_, .f32⟩
  | 57 => ⟨S100000, .f32⟩
  | 58 => ⟨S600000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S1x600000, .i32⟩
  | 76 => ⟨S600000, .i32⟩
  | 77 => ⟨S1x600000, .i32⟩
  | 78 => ⟨S600000, .i32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S_, .f32⟩
  | 93 => ⟨S600000, .f32⟩
  | 94 => ⟨S_, .f32⟩
  | 95 => ⟨S50000, .f32⟩
  | 96 => ⟨S600000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S1x600000, .i32⟩
  | 114 => ⟨S600000, .i32⟩
  | 115 => ⟨S1x600000, .i32⟩
  | 116 => ⟨S600000, .i32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000x128, .f32⟩
  | 126 => ⟨S_, .f32⟩
  | 127 => ⟨S100000x128, .f32⟩
  | _ => ⟨S100000x128, .f32⟩

abbrev hbmTy0_1 (i : Nat) : BufTy := match i % 128 with
  | 0 => ⟨S600000x1, .i32⟩
  | 1 => ⟨S100000x128, .f32⟩
  | 2 => ⟨S_, .f32⟩
  | 3 => ⟨S600000, .f32⟩
  | 4 => ⟨S_, .f32⟩
  | 5 => ⟨S100000, .f32⟩
  | 6 => ⟨S600000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S100000x128, .f32⟩
  | 19 => ⟨S100000x128, .f32⟩
  | 20 => ⟨S1x600000, .i32⟩
  | 21 => ⟨S600000, .i32⟩
  | 22 => ⟨S1x600000, .i32⟩
  | 23 => ⟨S600000, .i32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S_, .f32⟩
  | 38 => ⟨S600000, .f32⟩
  | 39 => ⟨S_, .f32⟩
  | 40 => ⟨S50000, .f32⟩
  | 41 => ⟨S600000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S50000x128, .f32⟩
  | 55 => ⟨S1x200000, .i32⟩
  | 56 => ⟨S200000, .i32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x128, .f32⟩
  | 66 => ⟨S1x200000, .i32⟩
  | 67 => ⟨S200000, .i32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000x128, .f32⟩
  | 77 => ⟨S200000x128, .f32⟩
  | 78 => ⟨S_, .f32⟩
  | 79 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call0_cst : Ref sig .tc := ⟨.hbm, 72, rfl⟩
abbrev main_call0_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_8 : Ref sig .tc := ⟨.hbm, 79, rfl⟩
abbrev main_v48 : Ref sig .tc := ⟨.hbm, 80, rfl⟩
abbrev main_v49 : Ref sig .tc := ⟨.hbm, 81, rfl⟩
abbrev main_c_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_11 : Ref sig .tc := ⟨.hbm, 92, rfl⟩
abbrev main_v58 : Ref sig .tc := ⟨.hbm, 93, rfl⟩
abbrev main_cst_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call1_cst : Ref sig .tc := ⟨.hbm, 110, rfl⟩
abbrev main_call1_v0 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_14 : Ref sig .tc := ⟨.hbm, 117, rfl⟩
abbrev main_v78 : Ref sig .tc := ⟨.hbm, 118, rfl⟩
abbrev main_v79 : Ref sig .tc := ⟨.hbm, 119, rfl⟩
abbrev main_c_15 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_16 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_17 : Ref sig .tc := ⟨.hbm, 130, rfl⟩
abbrev main_v88 : Ref sig .tc := ⟨.hbm, 131, rfl⟩
abbrev main_cst_18 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_20 : Ref sig .tc := ⟨.hbm, 152, rfl⟩
abbrev main_v107 : Ref sig .tc := ⟨.hbm, 153, rfl⟩
abbrev main_v108 : Ref sig .tc := ⟨.hbm, 154, rfl⟩
abbrev main_c_21 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_22 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_23 : Ref sig .tc := ⟨.hbm, 165, rfl⟩
abbrev main_v117 : Ref sig .tc := ⟨.hbm, 166, rfl⟩
abbrev main_cst_24 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_25 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_c_26 : Ref sig .tc := ⟨.hbm, 185, rfl⟩
abbrev main_v134 : Ref sig .tc := ⟨.hbm, 186, rfl⟩
abbrev main_v135 : Ref sig .tc := ⟨.hbm, 187, rfl⟩
abbrev main_c_27 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_c_28 : Ref sig .tc := ⟨.hbm, 196, rfl⟩
abbrev main_v143 : Ref sig .tc := ⟨.hbm, 197, rfl⟩
abbrev main_v144 : Ref sig .tc := ⟨.hbm, 198, rfl⟩
abbrev main_c_29 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_30 : Ref sig .tc := ⟨.hbm, 206, rfl⟩
abbrev main_v151 : Ref sig .tc := ⟨.hbm, 207, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  gather_S100000x128_S100000x1_S100000x128_1_0_n_n_0_1_1128_wf : GatherDims.WF S100000x128 S100000x1 S100000x128 [1] [0] [] [0] [] 1 ![1, 128]
  gather_S50000x128_S50000x1_S50000x128_1_0_n_n_0_1_1128_wf : GatherDims.WF S50000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.KernelRun.lean ====
/-
  The run of the idealized kernel's @main with its result named. The program is eleven segments — six stretches of host
  operations and five tiled regions between them — and the contents of every buffer at each segment boundary are a fold
  from the launch memory: a stretch applies its operations, a region replaces its arrays by what its write-backs leave.
  Every weakly fair execution terminates without a fault with the result buffer at the last boundary's contents and the
  argument arrays as launched.
-/
import proofs.«109615_j5153960755960_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The segments' run from the launch: the result buffer ends at the last boundary's contents, every argument as launched. -/
theorem run_result : θ_run defs (onTc (τ := τ) (main (F := F))) ⟨m, fun _ => 0, ρ⟩ (fun r => ∀ c : Dev nD,
      r.2.mem ((c.tc : Thread nD τ).loc main_v127) = W11 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v127 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c)⟩)

end Cert.KernelIdeal.KRun

end
-- ==== Proof.Hops.lean ====
import proofs.«109615_j5153960755960_2_alg».proof.Proof.Gen.KernelIdeal.Frame

/-! Single buffers read through the fold of boundary contents.

A stretch of host operations leaves a buffer it does not write as it found it, and a region leaves every buffer
that is not one of its window arrays as it found it.  Chaining these two facts reads each argument back to the
launch memory, carries each intermediate across the boundaries between its producer and its consumer, and
identifies each region's result buffer with the output window's array after the last write-back. -/

set_option maxRecDepth 16384

noncomputable section

namespace Cert.KernelIdeal.Hops

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

/-- A buffer that no operation of the stretch `ops` writes holds after the stretch what it held before:
    the write sets of the operations are listed and each is told apart from `buf` by deciding the names. -/
local macro "host_keeps " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Arguments read back to the launch memory -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := host_keeps hostOps0 main_arg0
    _ = m ((c : Thread nD τ).loc main_arg0) := rfl

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := host_keeps hostOps0 main_arg1
    _ = m ((c : Thread nD τ).loc main_arg1) := rfl

theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := host_keeps hostOps0 main_arg4
    _ = m ((c : Thread nD τ).loc main_arg4) := rfl

theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := host_keeps hostOps0 main_arg5
    _ = m ((c : Thread nD τ).loc main_arg5) := rfl

theorem W1_arg11 (c : Dev nD) : W1 m ρ c (Proc.devRef .tc main_arg11) = m ((c : Thread nD τ).loc main_arg11) :=
  calc W1 m ρ c (Proc.devRef .tc main_arg11)
    _ = W0 m ρ c (Proc.devRef .tc main_arg11) := host_keeps hostOps0 main_arg11
    _ = m ((c : Thread nD τ).loc main_arg11) := rfl

theorem W1_arg14 (c : Dev nD) : W1 m ρ c (Proc.devRef .tc main_arg14) = m ((c : Thread nD τ).loc main_arg14) :=
  calc W1 m ρ c (Proc.devRef .tc main_arg14)
    _ = W0 m ρ c (Proc.devRef .tc main_arg14) := host_keeps hostOps0 main_arg14
    _ = m ((c : Thread nD τ).loc main_arg14) := rfl

theorem W1_arg15 (c : Dev nD) : W1 m ρ c (Proc.devRef .tc main_arg15) = m ((c : Thread nD τ).loc main_arg15) :=
  calc W1 m ρ c (Proc.devRef .tc main_arg15)
    _ = W0 m ρ c (Proc.devRef .tc main_arg15) := host_keeps hostOps0 main_arg15
    _ = m ((c : Thread nD τ).loc main_arg15) := rfl

theorem W1_arg16 (c : Dev nD) : W1 m ρ c (Proc.devRef .tc main_arg16) = m ((c : Thread nD τ).loc main_arg16) :=
  calc W1 m ρ c (Proc.devRef .tc main_arg16)
    _ = W0 m ρ c (Proc.devRef .tc main_arg16) := host_keeps hostOps0 main_arg16
    _ = m ((c : Thread nD τ).loc main_arg16) := rfl

theorem W1_arg17 (c : Dev nD) : W1 m ρ c (Proc.devRef .tc main_arg17) = m ((c : Thread nD τ).loc main_arg17) :=
  calc W1 m ρ c (Proc.devRef .tc main_arg17)
    _ = W0 m ρ c (Proc.devRef .tc main_arg17) := host_keeps hostOps0 main_arg17
    _ = m ((c : Thread nD τ).loc main_arg17) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := host_keeps hostOps0 main_arg10
    _ = m ((c : Thread nD τ).loc main_arg10) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := host_keeps hostOps1 main_arg2
    _ = W1 m ρ c (Proc.devRef .tc main_arg2) := W2_of_ne m ρ c main_arg2 (by decide)
    _ = W0 m ρ c (Proc.devRef .tc main_arg2) := host_keeps hostOps0 main_arg2
    _ = m ((c : Thread nD τ).loc main_arg2) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := host_keeps hostOps1 main_arg3
    _ = W1 m ρ c (Proc.devRef .tc main_arg3) := W2_of_ne m ρ c main_arg3 (by decide)
    _ = W0 m ρ c (Proc.devRef .tc main_arg3) := host_keeps hostOps0 main_arg3
    _ = m ((c : Thread nD τ).loc main_arg3) := rfl

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := host_keeps hostOps1 main_arg13
    _ = W1 m ρ c (Proc.devRef .tc main_arg13) := W2_of_ne m ρ c main_arg13 (by decide)
    _ = W0 m ρ c (Proc.devRef .tc main_arg13) := host_keeps hostOps0 main_arg13
    _ = m ((c : Thread nD τ).loc main_arg13) := rfl

theorem W4_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := host_keeps hostOps1 main_arg16
    _ = W1 m ρ c (Proc.devRef .tc main_arg16) := W2_of_ne m ρ c main_arg16 (by decide)
    _ = W0 m ρ c (Proc.devRef .tc main_arg16) := host_keeps hostOps0 main_arg16
    _ = m ((c : Thread nD τ).loc main_arg16) := rfl

theorem W4_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := host_keeps hostOps1 main_arg17
    _ = W1 m ρ c (Proc.devRef .tc main_arg17) := W2_of_ne m ρ c main_arg17 (by decide)
    _ = W0 m ρ c (Proc.devRef .tc main_arg17) := host_keeps hostOps0 main_arg17
    _ = m ((c : Thread nD τ).loc main_arg17) := rfl

theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := host_keeps hostOps2 main_arg8
    _ = W3 m ρ c (Proc.devRef .tc main_arg8) := W4_of_ne m ρ c main_arg8 (by decide)
    _ = W2 m ρ c (Proc.devRef .tc main_arg8) := host_keeps hostOps1 main_arg8
    _ = W1 m ρ c (Proc.devRef .tc main_arg8) := W2_of_ne m ρ c main_arg8 (by decide)
    _ = W0 m ρ c (Proc.devRef .tc main_arg8) := host_keeps hostOps0 main_arg8
    _ = m ((c : Thread nD τ).loc main_arg8) := rfl

theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := host_keeps hostOps2 main_arg9
    _ = W3 m ρ c (Proc.devRef .tc main_arg9) := W4_of_ne m ρ c main_arg9 (by decide)
    _ = W2 m ρ c (Proc.devRef .tc main_arg9) := host_keeps hostOps1 main_arg9
    _ = W1 m ρ c (Proc.devRef .tc main_arg9) := W2_of_ne m ρ c main_arg9 (by decide)
    _ = W0 m ρ c (Proc.devRef .tc main_arg9) := host_keeps hostOps0 main_arg9
    _ = m ((c : Thread nD τ).loc main_arg9) := rfl

theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := host_keeps hostOps2 main_arg12
    _ = W3 m ρ c (Proc.devRef .tc main_arg12) := W4_of_ne m ρ c main_arg12 (by decide)
    _ = W2 m ρ c (Proc.devRef .tc main_arg12) := host_keeps hostOps1 main_arg12
    _ = W1 m ρ c (Proc.devRef .tc main_arg12) := W2_of_ne m ρ c main_arg12 (by decide)
    _ = W0 m ρ c (Proc.devRef .tc main_arg12) := host_keeps hostOps0 main_arg12
    _ = m ((c : Thread nD τ).loc main_arg12) := rfl

theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := host_keeps hostOps3 main_arg6
    _ = W5 m ρ c (Proc.devRef .tc main_arg6) := W6_of_ne m ρ c main_arg6 (by decide)
    _ = W4 m ρ c (Proc.devRef .tc main_arg6) := host_keeps hostOps2 main_arg6
    _ = W3 m ρ c (Proc.devRef .tc main_arg6) := W4_of_ne m ρ c main_arg6 (by decide)
    _ = W2 m ρ c (Proc.devRef .tc main_arg6) := host_keeps hostOps1 main_arg6
    _ = W1 m ρ c (Proc.devRef .tc main_arg6) := W2_of_ne m ρ c main_arg6 (by decide)
    _ = W0 m ρ c (Proc.devRef .tc main_arg6) := host_keeps hostOps0 main_arg6
    _ = m ((c : Thread nD τ).loc main_arg6) := rfl

theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := host_keeps hostOps3 main_arg7
    _ = W5 m ρ c (Proc.devRef .tc main_arg7) := W6_of_ne m ρ c main_arg7 (by decide)
    _ = W4 m ρ c (Proc.devRef .tc main_arg7) := host_keeps hostOps2 main_arg7
    _ = W3 m ρ c (Proc.devRef .tc main_arg7) := W4_of_ne m ρ c main_arg7 (by decide)
    _ = W2 m ρ c (Proc.devRef .tc main_arg7) := host_keeps hostOps1 main_arg7
    _ = W1 m ρ c (Proc.devRef .tc main_arg7) := W2_of_ne m ρ c main_arg7 (by decide)
    _ = W0 m ρ c (Proc.devRef .tc main_arg7) := host_keeps hostOps0 main_arg7
    _ = m ((c : Thread nD τ).loc main_arg7) := rfl

theorem W8_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := host_keeps hostOps3 main_arg18
    _ = W5 m ρ c (Proc.devRef .tc main_arg18) := W6_of_ne m ρ c main_arg18 (by decide)
    _ = W4 m ρ c (Proc.devRef .tc main_arg18) := host_keeps hostOps2 main_arg18
    _ = W3 m ρ c (Proc.devRef .tc main_arg18) := W4_of_ne m ρ c main_arg18 (by decide)
    _ = W2 m ρ c (Proc.devRef .tc main_arg18) := host_keeps hostOps1 main_arg18
    _ = W1 m ρ c (Proc.devRef .tc main_arg18) := W2_of_ne m ρ c main_arg18 (by decide)
    _ = W0 m ρ c (Proc.devRef .tc main_arg18) := host_keeps hostOps0 main_arg18
    _ = m ((c : Thread nD τ).loc main_arg18) := rfl

/-! ## Intermediates carried from the boundary after their producer to the boundary before their consumer -/

theorem W3_v67 (c : Dev nD) : W3 m ρ c (Proc.devRef .tc main_v67) = W1 m ρ c (Proc.devRef .tc main_v67) :=
  calc W3 m ρ c (Proc.devRef .tc main_v67)
    _ = W2 m ρ c (Proc.devRef .tc main_v67) := host_keeps hostOps1 main_v67
    _ = W1 m ρ c (Proc.devRef .tc main_v67) := W2_of_ne m ρ c main_v67 (by decide)

theorem W3_v13 (c : Dev nD) : W3 m ρ c (Proc.devRef .tc main_v13) = W1 m ρ c (Proc.devRef .tc main_v13) :=
  calc W3 m ρ c (Proc.devRef .tc main_v13)
    _ = W2 m ρ c (Proc.devRef .tc main_v13) := host_keeps hostOps1 main_v13
    _ = W1 m ρ c (Proc.devRef .tc main_v13) := W2_of_ne m ρ c main_v13 (by decide)

theorem W4_v69 (c : Dev nD) : W4 m ρ c (Proc.devRef .tc main_v69) = W2 m ρ c (Proc.devRef .tc main_v69) :=
  calc W4 m ρ c (Proc.devRef .tc main_v69)
    _ = W3 m ρ c (Proc.devRef .tc main_v69) := W4_of_ne m ρ c main_v69 (by decide)
    _ = W2 m ρ c (Proc.devRef .tc main_v69) := host_keeps hostOps1 main_v69

theorem W4_v24 (c : Dev nD) : W4 m ρ c (Proc.devRef .tc main_v24) = W1 m ρ c (Proc.devRef .tc main_v24) :=
  calc W4 m ρ c (Proc.devRef .tc main_v24)
    _ = W3 m ρ c (Proc.devRef .tc main_v24) := W4_of_ne m ρ c main_v24 (by decide)
    _ = W2 m ρ c (Proc.devRef .tc main_v24) := host_keeps hostOps1 main_v24
    _ = W1 m ρ c (Proc.devRef .tc main_v24) := W2_of_ne m ρ c main_v24 (by decide)

theorem W4_v35 (c : Dev nD) : W4 m ρ c (Proc.devRef .tc main_v35) = W1 m ρ c (Proc.devRef .tc main_v35) :=
  calc W4 m ρ c (Proc.devRef .tc main_v35)
    _ = W3 m ρ c (Proc.devRef .tc main_v35) := W4_of_ne m ρ c main_v35 (by decide)
    _ = W2 m ρ c (Proc.devRef .tc main_v35) := host_keeps hostOps1 main_v35
    _ = W1 m ρ c (Proc.devRef .tc main_v35) := W2_of_ne m ρ c main_v35 (by decide)

theorem W5_v69 (c : Dev nD) : W5 m ρ c (Proc.devRef .tc main_v69) = W2 m ρ c (Proc.devRef .tc main_v69) :=
  calc W5 m ρ c (Proc.devRef .tc main_v69)
    _ = W4 m ρ c (Proc.devRef .tc main_v69) := host_keeps hostOps2 main_v69
    _ = W3 m ρ c (Proc.devRef .tc main_v69) := W4_of_ne m ρ c main_v69 (by decide)
    _ = W2 m ρ c (Proc.devRef .tc main_v69) := host_keeps hostOps1 main_v69

theorem W7_v103 (c : Dev nD) : W7 m ρ c (Proc.devRef .tc main_v103) = W5 m ρ c (Proc.devRef .tc main_v103) :=
  calc W7 m ρ c (Proc.devRef .tc main_v103)
    _ = W6 m ρ c (Proc.devRef .tc main_v103) := host_keeps hostOps3 main_v103
    _ = W5 m ρ c (Proc.devRef .tc main_v103) := W6_of_ne m ρ c main_v103 (by decide)

theorem W7_v71 (c : Dev nD) : W7 m ρ c (Proc.devRef .tc main_v71) = W4 m ρ c (Proc.devRef .tc main_v71) :=
  calc W7 m ρ c (Proc.devRef .tc main_v71)
    _ = W6 m ρ c (Proc.devRef .tc main_v71) := host_keeps hostOps3 main_v71
    _ = W5 m ρ c (Proc.devRef .tc main_v71) := W6_of_ne m ρ c main_v71 (by decide)
    _ = W4 m ρ c (Proc.devRef .tc main_v71) := host_keeps hostOps2 main_v71

theorem W8_v105 (c : Dev nD) : W8 m ρ c (Proc.devRef .tc main_v105) = W6 m ρ c (Proc.devRef .tc main_v105) :=
  calc W8 m ρ c (Proc.devRef .tc main_v105)
    _ = W7 m ρ c (Proc.devRef .tc main_v105) := W8_of_ne m ρ c main_v105 (by decide)
    _ = W6 m ρ c (Proc.devRef .tc main_v105) := host_keeps hostOps3 main_v105

/-! ## Each region's result buffer is its output window's array after the last write-back -/

theorem W2_v69 (c : Dev nD) : W2 m ρ c (Proc.devRef .tc main_v69) = (dat0 (V1 m ρ) c).arrAt 5 cfg0.N :=
  W2_arr m ρ c 5

theorem W4_v71 (c : Dev nD) : W4 m ρ c (Proc.devRef .tc main_v71) = (dat1 (V3 m ρ) c).arrAt 5 cfg1.N :=
  W4_arr m ρ c 5

theorem W6_v105 (c : Dev nD) : W6 m ρ c (Proc.devRef .tc main_v105) = (dat2 (V5 m ρ) c).arrAt 5 cfg2.N :=
  W6_arr m ρ c 5

theorem W8_v107 (c : Dev nD) : W8 m ρ c (Proc.devRef .tc main_v107) = (dat3 (V7 m ρ) c).arrAt 5 cfg3.N :=
  W8_arr m ρ c 5

theorem W10_v126 (c : Dev nD) : W10 m ρ c (Proc.devRef .tc main_v126) = (dat4 (V9 m ρ) c).arrAt 2 cfg4.N :=
  W10_arr m ρ c 2

end Cert.KernelIdeal.Hops
-- ==== Proof.LibRowTiles.lean ====
/-
  A matrix computed in tiles of rows, read as one function of the whole arrays; and the two ways of laying a bias vector
  along the rows of a matrix before a maximum with zero. Nothing here depends on a program; every extent is a variable.

  * `prod X W` is the product of an M × K matrix and a K × N matrix, entry by entry: (i, j) ↦ Σ_k X(i, k) · W(k, j), an exact
    finite sum of extended reals. The host's `dot_general` with the plain dimension numbers is `prod` (`dotGeneral_eq_prod`).
    A tile of m rows of X times the whole W into the zero accumulator — after the change of float format a kernel makes
    on the way into the product, which is the identity on the ideal values — read at an entry of the tile is `prod X W` at
    the entry of the whole matrix that has the same row of X and the same column of W (`tile_prod_apply`).
  * `biasRelu A r` is (i, j) ↦ max (A(i, j) + r(0, j)) 0 for a one-row matrix r. A tile of rows of A plus the row
    broadcast down the tile, under the maximum with the zero splat, read at an entry of the tile is `biasRelu A r` at the
    matching entry (`tile_biasRelu_apply`); the host's spelling — A plus the vector b broadcast first to one row along axis 1
    and then down the rows, under the maximum with the broadcast zero constant — is `biasRelu A` of b recast as one row
    (`host_biasRelu_eq`). No finiteness is used: each side is the same sum and the same maximum.
-/
import Idealize.ShloMosaic.Lib.StackMember
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowTiles

open Idealize.ShloMosaic Idealize.ShloMosaic.ValueIdx

/-- The product of an M × K matrix and a K × N matrix, entry by entry. -/
def prod {M K N : Nat} (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The host's product with the plain dimension numbers is `prod`. -/
theorem dotGeneral_eq_prod {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) : Host.dotGeneral d none X W = prod X W := by
  subst hd
  funext j
  conv_lhs => rw [eq_ix2 j]
  exact StackMember.dotGeneral_plain_apply none X W (j 0) (j 1)

/-- A tile's product into the zero accumulator, at an entry whose row of the tile is row `i 0` of X and whose column of
    the weights is column `i 1` of W, is the whole product at `i`. -/
theorem tile_prod_apply {m M K N : Nat} (d : DotDims ⟨2, ![m, K]⟩ ⟨2, ![K, N]⟩ ⟨2, ![m, N]⟩) (hd : d = DotDims.plain m K N)
    (h1 : FTy.bf16.bits < FTy.f32.bits)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 xb h1) (truncf .bf16 wb h1) (constant ⟨2, ![m, N]⟩ .f32 0x00000000#32) y = prod X W i := by
  subst hd
  rw [matmul_zero_eq_dotGeneral]
  conv_lhs => rw [eq_ix2 y]
  refine (StackMember.dotGeneral_plain_apply none (truncf .bf16 xb h1) (truncf .bf16 wb h1) (y 0) (y 1)).trans ?_
  exact Finset.sum_congr rfl fun k _ => congrArg₂ (· * ·) (hx k) (hw k)

/-- The same with the tile passed through a cast to its own shape first (how a kernel reads a block it has just loaded). -/
theorem tile_prod_cast_apply {m M K N : Nat} (d : DotDims ⟨2, ![m, K]⟩ ⟨2, ![K, N]⟩ ⟨2, ![m, N]⟩) (hd : d = DotDims.plain m K N)
    (h1 : FTy.bf16.bits < FTy.f32.bits) (hs : (⟨2, ![m, K]⟩ : Shape).ShapeCasts ⟨2, ![m, K]⟩)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 (shapeCast ⟨2, ![m, K]⟩ xb hs) h1) (truncf .bf16 wb h1) (constant ⟨2, ![m, N]⟩ .f32 0x00000000#32) y = prod X W i := by
  rw [shapeCast_self]
  exact tile_prod_apply d hd h1 xb wb X W y i hx hw

/-- A matrix plus a one-row matrix laid along every row, under the maximum with zero, entry by entry. -/
def biasRelu {M n : Nat} (A : FVec Ideal ⟨2, ![M, n]⟩ .f32) (r : FVec Ideal ⟨2, ![1, n]⟩ .f32) : FVec Ideal ⟨2, ![M, n]⟩ .f32 :=
  fun i => max (A i + r (ix2 (0 : Fin 1) (i 1))) (Ideal.ofBits .f32 0x00000000#32)

/-- A one-row matrix broadcast down m rows in the kernel's spelling, read at an entry, is the row at that column. -/
theorem broadcastTo_oneRow_at {α : Type} {m n : Nat} (b : (⟨2, ![1, n]⟩ : Shape).Idx → α)
    (hb : (⟨2, ![1, n]⟩ : Shape).Broadcasts ⟨2, ![m, n]⟩) (y : (⟨2, ![m, n]⟩ : Shape).Idx) :
    broadcastTo ⟨2, ![m, n]⟩ b hb y = b (ix2 (0 : Fin 1) (y 1)) := by
  refine broadcastTo_apply b hb y (ix2 (0 : Fin 1) (y 1)) ?_
  intro a
  match a with
  | ⟨0, _⟩ => rfl
  | ⟨1, _⟩ =>
    show (y 1).val = if n = 1 then 0 else (y 1).val
    split
    · have := idx2_lt1 y; omega
    · rfl

/-- A tile of rows plus the row broadcast down the tile, under the maximum with the zero splat, at an entry of the tile. -/
theorem tile_biasRelu_apply {m M n : Nat} (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf ab (broadcastTo ⟨2, ![m, n]⟩ rb hb)) (broadcast ⟨2, ![m, n]⟩ (Scalar.ofBits (F := Ideal) .f32 0x00000000#32)) y
      = biasRelu A r i := by
  show max (ab y + broadcastTo ⟨2, ![m, n]⟩ rb hb y) (Ideal.ofBits .f32 0x00000000#32) = max (A i + r (ix2 (0 : Fin 1) (i 1))) _
  rw [broadcastTo_oneRow_at rb hb y, ha, hr]

/-- The same with the tile and the row each passed through a cast to its own shape first. -/
theorem tile_biasRelu_cast_apply {m M n : Nat} (hs1 : (⟨2, ![m, n]⟩ : Shape).ShapeCasts ⟨2, ![m, n]⟩)
    (hs2 : (⟨2, ![1, n]⟩ : Shape).ShapeCasts ⟨2, ![1, n]⟩) (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf (shapeCast ⟨2, ![m, n]⟩ ab hs1) (broadcastTo ⟨2, ![m, n]⟩ (shapeCast ⟨2, ![1, n]⟩ rb hs2) hb))
        (broadcast ⟨2, ![m, n]⟩ (Scalar.ofBits (F := Ideal) .f32 0x00000000#32)) y
      = biasRelu A r i := by
  rw [shapeCast_self, shapeCast_self]
  exact tile_biasRelu_apply hb ab rb A r y i ha hr

/-- The host's spelling of the same function of the whole arrays: the bias vector b broadcast to one row along axis 1 and
    then down the rows, added, under the maximum with the broadcast zero constant. -/
theorem host_biasRelu_eq {M n : Nat} (dims0 : Fin 0 → Fin 2)
    (hd1 : (⟨1, ![n]⟩ : Shape).BroadcastsInDim ⟨2, ![1, n]⟩ ![1])
    (hd2 : (⟨2, ![1, n]⟩ : Shape).BroadcastsInDim ⟨2, ![M, n]⟩ ![0, 1])
    (h0 : (⟨0, ![]⟩ : Shape).BroadcastsInDim ⟨2, ![M, n]⟩ dims0)
    (h1 : (⟨1, ![n]⟩ : Shape).ShapeCasts ⟨2, ![1, n]⟩)
    (A : FVec Ideal ⟨2, ![M, n]⟩ .f32) (b : FVec Ideal ⟨1, ![n]⟩ .f32) :
    maximumf (addf A (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = biasRelu A (shapeCast ⟨2, ![1, n]⟩ b h1) := by
  funext i
  show max (A i + broadcastInDim ⟨2, ![M, n]⟩ ![0, 1] hd2 (broadcastInDim ⟨2, ![1, n]⟩ ![1] hd1 b) i) (Ideal.ofBits .f32 0x00000000#32)
    = max (A i + shapeCast ⟨2, ![1, n]⟩ b h1 (ix2 (0 : Fin 1) (i 1))) _
  have e1 : broadcastInDim ⟨2, ![M, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  have e2 : broadcastInDim ⟨2, ![1, n]⟩ ![1] hd1 b (ix2 (0 : Fin 1) (i 1)) = b (ix1 (i 1)) := by
    refine broadcastInDim_apply ![1] hd1 b (ix2 (0 : Fin 1) (i 1)) (ix1 (i 1)) ?_
    intro a
    match a with
    | ⟨0, _⟩ =>
      show (i 1).val = if n = 1 then 0 else (i 1).val
      split
      · have := idx2_lt1 i; omega
      · rfl
  have e3 : shapeCast ⟨2, ![1, n]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * n + (i 1).val
    omega
  rw [e1, e2, e3]

/-- A vector recast as one row and broadcast down m rows (the kernel's spelling), at an entry, is the vector at the column. -/
theorem kernelRow_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) : broadcastTo ⟨2, ![m, n]⟩ (shapeCast ⟨2, ![1, n]⟩ b h1) hb i = b (ix1 (i 1)) := by
  rw [broadcastTo_oneRow_at]
  refine shapeCast_apply b h1 (ix2 (0 : Fin 1) (i 1)) (ix1 (i 1)) ?_
  rw [Shape.rowMajor_val_two, Shape.rowMajor_val_one]
  show (i 1).val = 0 * n + (i 1).val
  omega

/-- A vector broadcast to one row along axis 1 and then down m rows (the host's spelling), at an entry, is the vector at
    the column. -/
theorem hostRow_apply {α : Type} {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![1, n]⟩ ![1] hd1 b) i = b (ix1 (i 1)) := by
  have e1 : broadcastInDim ⟨2, ![m, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  rw [e1]
  refine broadcastInDim_apply ![1] hd1 b (ix2 (0 : Fin 1) (i 1)) (ix1 (i 1)) ?_
  intro a
  match a with
  | ⟨0, _⟩ =>
    show (i 1).val = if n = 1 then 0 else (i 1).val
    split
    · have := idx2_lt1 i; omega
    · rfl

/-- The two spellings of a vector laid along every row are one array. -/
theorem kernelRow_eq_hostRow {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) :=
  funext fun i => (kernelRow_apply b h1 hb i).trans (hostRow_apply b hd1 hd2 i).symm

/-- A whole matrix as its own tile: the kernel's product of the whole arrays into the zero accumulator is `prod`. -/
theorem matmul_eq_prod {M K N : Nat} (d : DotDims ⟨2, ![M, K]⟩ ⟨2, ![K, N]⟩ ⟨2, ![M, N]⟩) (hd : d = DotDims.plain M K N)
    (h1 : FTy.bf16.bits < FTy.f32.bits) (X : FVec Ideal ⟨2, ![M, K]⟩ .f32) (W : FVec Ideal ⟨2, ![K, N]⟩ .f32) :
    matmul d none (truncf .bf16 X h1) (truncf .bf16 W h1) (constant ⟨2, ![M, N]⟩ .f32 0x00000000#32) = prod X W :=
  funext fun y => tile_prod_apply d hd h1 X W X W y y (fun _ => rfl) (fun _ => rfl)

/-- A whole matrix as its own tile: the kernel's bias and relu of the whole arrays is `biasRelu`. -/
theorem kernel_biasRelu_eq {M n : Nat} (hb : (⟨2, ![1, n]⟩ : Shape).Broadcasts ⟨2, ![M, n]⟩)
    (A : FVec Ideal ⟨2, ![M, n]⟩ .f32) (r : FVec Ideal ⟨2, ![1, n]⟩ .f32) :
    maximumf (addf A (broadcastTo ⟨2, ![M, n]⟩ r hb)) (broadcast ⟨2, ![M, n]⟩ (Scalar.ofBits (F := Ideal) .f32 0x00000000#32))
      = biasRelu A r :=
  funext fun y => tile_biasRelu_apply hb A r A r y y rfl rfl

end Cert.LibRowTiles

end
-- ==== Proof.SageSpec.lean ====
/-
  One dense layer of a mean-aggregating graph convolution, and the row-by-row inner product of two matrices, as functions
  of whole arrays read entry by entry on the extended reals. Nothing here depends on a program; the number of rows is a
  variable.

  * `layer relu mean xd wl wr b` at (p, q) is  (Σ_k mean(p,k)·wl(k,q) + Σ_k xd(p,k)·wr(k,q)) + b(0,q),  under a maximum
    with zero when `relu` is set: the aggregated neighbourhood mean through the left weights, the node's own row through the
    right weights, and a bias row.
  * `dotRows fu fi` at (p, 0) is Σ_k fu(p,k)·fi(p,k): the inner product of row p of the two matrices, kept as a column.
-/
import proofs.«109615_j5153960755960_2_alg».proof.Proof.LibRowTiles

noncomputable section

namespace Cert.SageSpec

open Idealize.ShloMosaic Idealize.ShloMosaic.ValueIdx

/-- The dense part of one layer, entry by entry. -/
def layer {R : Nat} (relu : Bool) (mean xd : FVec Ideal ⟨2, ![R, 128]⟩ .f32) (wl wr : FVec Ideal ⟨2, ![128, 128]⟩ .f32)
    (b : FVec Ideal ⟨2, ![1, 128]⟩ .f32) : FVec Ideal ⟨2, ![R, 128]⟩ .f32 :=
  fun i =>
    if relu then max ((Cert.LibRowTiles.prod mean wl i + Cert.LibRowTiles.prod xd wr i) + b (ix2 (0 : Fin 1) (i 1))) (Ideal.ofBits .f32 0x00000000#32)
    else (Cert.LibRowTiles.prod mean wl i + Cert.LibRowTiles.prod xd wr i) + b (ix2 (0 : Fin 1) (i 1))

/-- The inner product of matching rows, as a column. -/
def dotRows {R : Nat} (fu fi : FVec Ideal ⟨2, ![R, 128]⟩ .f32) : FVec Ideal ⟨2, ![R, 1]⟩ .f32 :=
  fun i => ∑ k : Fin 128, fu (ix2 (i 0) k) * fi (ix2 (i 0) k)

end Cert.SageSpec

end
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.SageLaws.lean ====
/-
  Three laws on the extended reals that join a tiled two-layer mean-aggregating graph convolution to its plain
  reference. Nothing here depends on a program; every extent is a variable.

  * The mean of the gathered rows. With c = max(count, 1) ≥ 1 the divisor is never zero, so a quotient by c is the
    product with c⁻¹, and 1 / c is c⁻¹ itself: scaling the summed rows by the column 1 / max(count, 1) is dividing them by
    the column max(count, 1), on every extended real — no finiteness is used (`mean_eq`).
  * The dense layer. (Σ mean·wl + Σ xd·wr) + b and (Σ mean·wl + b) + Σ xd·wr differ by the order of a sum of three terms,
    and addition of extended reals is commutative and associative: the layer function is the host's two products and
    its broadcast bias, with or without the maximum with zero (`layer_eq_host`, `layer_relu_eq_host`).
-/
import proofs.«109615_j5153960755960_2_alg».proof.Proof.SageSpec
import proofs.«109615_j5153960755960_2_alg».proof.Proof.LibColumn
import proofs.«109615_j5153960755960_2_alg».proof.Proof.LibHostColumn
import Idealize.ShloMosaic.Lib.IdealHost
import Idealize.ShloMosaic.Lib.KernelVsHost

noncomputable section

namespace Cert.SageLaws

open Idealize.ShloMosaic Idealize.ShloMosaic.ValueIdx

/-- For c ≥ 1: a · (1 / c) = a / c on the extended reals. -/
theorem mul_inv_eq_div (a c : EReal) (hc : (1 : EReal) ≤ c) : a * Ideal.div 1 c = Ideal.div a c := by
  have h0 : c ≠ 0 := fun h => by rw [h] at hc; exact absurd hc (by norm_num)
  unfold Ideal.div
  rw [if_neg h0, if_neg h0, one_mul]

/-- A column spread over the columns of a matrix, read at an entry: the vector at the entry's row. -/
theorem spread_apply {α : Type} {N C : Nat}
    (hc : (⟨1, ![N]⟩ : Shape).BroadcastsInDim ⟨2, ![N, 1]⟩ ![0])
    (hb : (⟨2, ![N, 1]⟩ : Shape).BroadcastsInDim ⟨2, ![N, C]⟩ ![0, 1])
    (f : (⟨1, ![N]⟩ : Shape).Idx → α) (i : (⟨2, ![N, C]⟩ : Shape).Idx) :
    broadcastInDim ⟨2, ![N, C]⟩ ![0, 1] hb (broadcastInDim ⟨2, ![N, 1]⟩ ![0] hc f) i = f (ix1 (i 0)) := by
  conv_lhs => rw [eq_ix2 i]
  exact (Cert.LibHostColumn.broadcastInDim_a1_ab_apply _ hb (i 0) (i 1)).trans
    (Cert.LibColumn.broadcastInDim_a_a1_apply f hc (i 0) (0 : Fin 1))

/-- Scaling the summed rows by the column 1 / max(count, 1) is dividing them by the column max(count, 1). -/
theorem mean_eq {N C : Nat} (dims0 : Fin 0 → Fin 1)
    (h0 : (⟨0, ![]⟩ : Shape).BroadcastsInDim ⟨1, ![N]⟩ dims0)
    (hc : (⟨1, ![N]⟩ : Shape).BroadcastsInDim ⟨2, ![N, 1]⟩ ![0])
    (hb : (⟨2, ![N, 1]⟩ : Shape).BroadcastsInDim ⟨2, ![N, C]⟩ ![0, 1])
    (A : FVec Ideal ⟨2, ![N, C]⟩ .f32) (cnt : FVec Ideal ⟨1, ![N]⟩ .f32) :
    mulf A (broadcastInDim ⟨2, ![N, C]⟩ ![0, 1] hb (broadcastInDim ⟨2, ![N, 1]⟩ ![0] hc
        (Host.divf (F := Ideal) (broadcastInDim ⟨1, ![N]⟩ dims0 h0 (constant (F := Ideal) ⟨0, ![]⟩ .f32 0x3F800000#32))
          (maximumf cnt (broadcastInDim ⟨1, ![N]⟩ dims0 h0 (constant (F := Ideal) ⟨0, ![]⟩ .f32 0x3F800000#32))))))
      = Host.divf (F := Ideal) A (broadcastInDim ⟨2, ![N, C]⟩ ![0, 1] hb (broadcastInDim ⟨2, ![N, 1]⟩ ![0] hc
          (maximumf cnt (broadcastInDim ⟨1, ![N]⟩ dims0 h0 (constant (F := Ideal) ⟨0, ![]⟩ .f32 0x3F800000#32))))) := by
  funext i
  show A i * _ = Ideal.div (A i) _
  rw [spread_apply, spread_apply, broadcastInDim_constant]
  show A i * Ideal.div (Ideal.ofBits .f32 0x3F800000#32) (max (cnt (ix1 (i 0))) (Ideal.ofBits .f32 0x3F800000#32))
    = Ideal.div (A i) (max (cnt (ix1 (i 0))) (Ideal.ofBits .f32 0x3F800000#32))
  rw [Ideal.ofBits_one_f32]
  exact mul_inv_eq_div _ _ (le_max_right _ _)

/-- The dense layer without the maximum is the host's two products and its broadcast bias vector. -/
theorem layer_eq_host {R : Nat} (d : DotDims ⟨2, ![R, 128]⟩ ⟨2, ![128, 128]⟩ ⟨2, ![R, 128]⟩) (hd : d = DotDims.plain R 128 128)
    (hd1 : (⟨1, ![128]⟩ : Shape).BroadcastsInDim ⟨2, ![1, 128]⟩ ![1])
    (hd2 : (⟨2, ![1, 128]⟩ : Shape).BroadcastsInDim ⟨2, ![R, 128]⟩ ![0, 1])
    (h1 : (⟨1, ![128]⟩ : Shape).ShapeCasts ⟨2, ![1, 128]⟩)
    (mean xd : FVec Ideal ⟨2, ![R, 128]⟩ .f32) (wl wr : FVec Ideal ⟨2, ![128, 128]⟩ .f32) (b : FVec Ideal ⟨1, ![128]⟩ .f32) :
    Cert.SageSpec.layer false mean xd wl wr (shapeCast ⟨2, ![1, 128]⟩ b h1)
      = addf (addf (Host.dotGeneral d none mean wl) (broadcastInDim ⟨2, ![R, 128]⟩ ![0, 1] hd2 (broadcastInDim ⟨2, ![1, 128]⟩ ![1] hd1 b)))
          (Host.dotGeneral d none xd wr) := by
  rw [Cert.LibRowTiles.dotGeneral_eq_prod d hd, Cert.LibRowTiles.dotGeneral_eq_prod d hd]
  funext i
  show (Cert.LibRowTiles.prod mean wl i + Cert.LibRowTiles.prod xd wr i) + shapeCast ⟨2, ![1, 128]⟩ b h1 (ix2 (0 : Fin 1) (i 1))
    = (Cert.LibRowTiles.prod mean wl i + broadcastInDim ⟨2, ![R, 128]⟩ ![0, 1] hd2 (broadcastInDim ⟨2, ![1, 128]⟩ ![1] hd1 b) i)
        + Cert.LibRowTiles.prod xd wr i
  rw [Cert.LibRowTiles.hostRow_apply b hd1 hd2 i]
  have e3 : shapeCast ⟨2, ![1, 128]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * 128 + (i 1).val
    omega
  rw [e3]
  exact add_right_comm _ _ _

/-- The dense layer under the maximum with zero is the host's, under the maximum with the broadcast zero constant. -/
theorem layer_relu_eq_host {R : Nat} (d : DotDims ⟨2, ![R, 128]⟩ ⟨2, ![128, 128]⟩ ⟨2, ![R, 128]⟩) (hd : d = DotDims.plain R 128 128)
    (hd1 : (⟨1, ![128]⟩ : Shape).BroadcastsInDim ⟨2, ![1, 128]⟩ ![1])
    (hd2 : (⟨2, ![1, 128]⟩ : Shape).BroadcastsInDim ⟨2, ![R, 128]⟩ ![0, 1])
    (dims0 : Fin 0 → Fin 2) (h0 : (⟨0, ![]⟩ : Shape).BroadcastsInDim ⟨2, ![R, 128]⟩ dims0)
    (h1 : (⟨1, ![128]⟩ : Shape).ShapeCasts ⟨2, ![1, 128]⟩)
    (mean xd : FVec Ideal ⟨2, ![R, 128]⟩ .f32) (wl wr : FVec Ideal ⟨2, ![128, 128]⟩ .f32) (b : FVec Ideal ⟨1, ![128]⟩ .f32) :
    Cert.SageSpec.layer true mean xd wl wr (shapeCast ⟨2, ![1, 128]⟩ b h1)
      = maximumf (addf (addf (Host.dotGeneral d none mean wl) (broadcastInDim ⟨2, ![R, 128]⟩ ![0, 1] hd2 (broadcastInDim ⟨2, ![1, 128]⟩ ![1] hd1 b)))
          (Host.dotGeneral d none xd wr)) (broadcastInDim ⟨2, ![R, 128]⟩ dims0 h0 (constant (F := Ideal) ⟨0, ![]⟩ .f32 0x00000000#32)) := by
  rw [← layer_eq_host d hd hd1 hd2 h1]
  funext i
  rfl

end Cert.SageLaws

end
-- ==== Proof.HostReads.lean ====
/-
  The host operations of the tiled program's @main, read stretch by stretch as functions of the buffers a stretch finds,
  and set beside the stages of the reference. Both programs gather the node rows by the wrapped node ids, gather the
  source rows of every message, add them into the destination rows and count the messages per destination; the tiled
  program scales the summed rows by the column 1 / max(count, 1) where the reference divides by max(count, 1) — one
  function on the extended reals, since max(count, 1) ≥ 1 is never zero. The second layer's aggregation and the final
  row lookups apply the same operations to the first layer's and the second layer's outputs.
-/
import proofs.«109615_j5153960755960_2_alg».proof.Proof.Gen.KernelIdeal.Launch
import proofs.«109615_j5153960755960_2_alg».proof.Proof.Gen.ReferenceIdeal.Read
import proofs.«109615_j5153960755960_2_alg».proof.Proof.SageLaws
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.SL.Sem Idealize.ShloMosaic.StableHlo

/-! ## The aggregation and the row lookups as functions of the rows they read -/

/-- The rows of the items gathered at every message's source and added into the message's destination user. -/
def aggU (x : FVec Ideal Cert.ReferenceIdeal.S50000x128 .f32) (e : (⟨Cert.ReferenceIdeal.S2x600000, .i32⟩ : BufTy).Contents (Elt Ideal)) : FVec Ideal Cert.ReferenceIdeal.S100000x128 .f32 :=
  Host.scatterAdd Cert.ReferenceIdeal.scatter_S100000x128_S600000x1_S600000x128_1_0_0_1 (Cert.ReferenceIdeal.Read.val_main_v25 (F := Ideal)) (Cert.ReferenceIdeal.Read.val_main_v26 (F := Ideal) e)
    (Host.gather Cert.ReferenceIdeal.gather_S50000x128_S600000x1_S600000x128_1_0_n_n_0_1_1128 x (Cert.ReferenceIdeal.Read.val_main_v23 (F := Ideal) e))

/-- The rows of the users gathered at every message's source and added into the message's destination item. -/
def aggI (x : FVec Ideal Cert.ReferenceIdeal.S100000x128 .f32) (e : (⟨Cert.ReferenceIdeal.S2x600000, .i32⟩ : BufTy).Contents (Elt Ideal)) : FVec Ideal Cert.ReferenceIdeal.S50000x128 .f32 :=
  Host.scatterAdd Cert.ReferenceIdeal.scatter_S50000x128_S600000x1_S600000x128_1_0_0_1 (Cert.ReferenceIdeal.Read.val_main_v55 (F := Ideal)) (Cert.ReferenceIdeal.Read.val_main_v56 (F := Ideal) e)
    (Host.gather Cert.ReferenceIdeal.gather_S100000x128_S600000x1_S600000x128_1_0_n_n_0_1_1128 x (Cert.ReferenceIdeal.Read.val_main_v53 (F := Ideal) e))

/-- The user rows looked up at the labelled pairs' users. -/
def pickU (x : FVec Ideal Cert.ReferenceIdeal.S100000x128 .f32) (e : (⟨Cert.ReferenceIdeal.S2x200000, .i32⟩ : BufTy).Contents (Elt Ideal)) : FVec Ideal Cert.ReferenceIdeal.S200000x128 .f32 :=
  Host.gather Cert.ReferenceIdeal.gather_S100000x128_S200000x1_S200000x128_1_0_n_n_0_1_1128 x (Cert.ReferenceIdeal.Read.val_main_v139 (F := Ideal) e)

/-- The item rows looked up at the labelled pairs' items. -/
def pickI (x : FVec Ideal Cert.ReferenceIdeal.S50000x128 .f32) (e : (⟨Cert.ReferenceIdeal.S2x200000, .i32⟩ : BufTy).Contents (Elt Ideal)) : FVec Ideal Cert.ReferenceIdeal.S200000x128 .f32 :=
  Host.gather Cert.ReferenceIdeal.gather_S50000x128_S200000x1_S200000x128_1_0_n_n_0_1_1128 x (Cert.ReferenceIdeal.Read.val_main_v148 (F := Ideal) e)

/-- The column 1 / max(count, 1) over the users, from the messages' destinations. -/
def invU (e : (⟨Cert.ReferenceIdeal.S2x600000, .i32⟩ : BufTy).Contents (Elt Ideal)) : FVec Ideal Cert.ReferenceIdeal.S100000x1 .f32 :=
  broadcastInDim Cert.ReferenceIdeal.S100000x1 ![0] Cert.ReferenceIdeal.Facts₀.bcast_S100000_S100000x1_0
    (Host.divf (F := Ideal) (broadcastInDim Cert.ReferenceIdeal.S100000 ![] Cert.ReferenceIdeal.Facts₀.bcast_S_S100000 (constant (F := Ideal) Cert.ReferenceIdeal.S_ .f32 0x3F800000#32))
      (maximumf (Cert.ReferenceIdeal.Read.val_main_v31 (F := Ideal) e) (broadcastInDim Cert.ReferenceIdeal.S100000 ![] Cert.ReferenceIdeal.Facts₀.bcast_S_S100000 (constant (F := Ideal) Cert.ReferenceIdeal.S_ .f32 0x3F800000#32))))

/-- The column 1 / max(count, 1) over the items. -/
def invI (e : (⟨Cert.ReferenceIdeal.S2x600000, .i32⟩ : BufTy).Contents (Elt Ideal)) : FVec Ideal Cert.ReferenceIdeal.S50000x1 .f32 :=
  broadcastInDim Cert.ReferenceIdeal.S50000x1 ![0] Cert.ReferenceIdeal.Facts₀.bcast_S50000_S50000x1_0
    (Host.divf (F := Ideal) (broadcastInDim Cert.ReferenceIdeal.S50000 ![] Cert.ReferenceIdeal.Facts₀.bcast_S_S50000 (constant (F := Ideal) Cert.ReferenceIdeal.S_ .f32 0x3F800000#32))
      (maximumf (Cert.ReferenceIdeal.Read.val_main_v61 (F := Ideal) e) (broadcastInDim Cert.ReferenceIdeal.S50000 ![] Cert.ReferenceIdeal.Facts₀.bcast_S_S50000 (constant (F := Ideal) Cert.ReferenceIdeal.S_ .f32 0x3F800000#32))))

/-- Scaling the users' summed rows by 1 / max(count, 1) is the reference's quotient by max(count, 1). -/
theorem scaleU_eq (A : FVec Ideal Cert.ReferenceIdeal.S100000x128 .f32) (e : (⟨Cert.ReferenceIdeal.S2x600000, .i32⟩ : BufTy).Contents (Elt Ideal)) :
    mulf A (broadcastInDim Cert.ReferenceIdeal.S100000x128 ![0, 1] Cert.ReferenceIdeal.Facts₀.bcast_S100000x1_S100000x128_0_1 (invU e))
      = Host.divf (F := Ideal) A (Cert.ReferenceIdeal.Read.val_main_v35 (F := Ideal) e) :=
  Cert.SageLaws.mean_eq (N := 100000) (C := 128) ![] Cert.ReferenceIdeal.Facts₀.bcast_S_S100000 Cert.ReferenceIdeal.Facts₀.bcast_S100000_S100000x1_0 Cert.ReferenceIdeal.Facts₀.bcast_S100000x1_S100000x128_0_1 A
    (Cert.ReferenceIdeal.Read.val_main_v31 (F := Ideal) e)

/-- The same over the items. -/
theorem scaleI_eq (A : FVec Ideal Cert.ReferenceIdeal.S50000x128 .f32) (e : (⟨Cert.ReferenceIdeal.S2x600000, .i32⟩ : BufTy).Contents (Elt Ideal)) :
    mulf A (broadcastInDim Cert.ReferenceIdeal.S50000x128 ![0, 1] Cert.ReferenceIdeal.Facts₀.bcast_S50000x1_S50000x128_0_1 (invI e))
      = Host.divf (F := Ideal) A (Cert.ReferenceIdeal.Read.val_main_v65 (F := Ideal) e) :=
  Cert.SageLaws.mean_eq (N := 50000) (C := 128) ![] Cert.ReferenceIdeal.Facts₀.bcast_S_S50000 Cert.ReferenceIdeal.Facts₀.bcast_S50000_S50000x1_0 Cert.ReferenceIdeal.Facts₀.bcast_S50000x1_S50000x128_0_1 A
    (Cert.ReferenceIdeal.Read.val_main_v61 (F := Ideal) e)

/-! ## The stretches, over any contents `W` of the buffers they find -/

variable (W : Valuation τ sig (Elt Ideal))

/-- The user rows gathered by the wrapped node ids. -/
theorem h0_v6 : StableHlo.after (hostOps0 (F := Ideal)) W (Proc.devRef .tc main_v6)
    = Cert.ReferenceIdeal.Read.val_main_v6 (F := Ideal) (W (Proc.devRef .tc main_arg0)) (W (Proc.devRef .tc main_arg14)) := by
  after_results_simp; rfl

/-- The item rows gathered by the wrapped node ids. -/
theorem h0_v13 : StableHlo.after (hostOps0 (F := Ideal)) W (Proc.devRef .tc main_v13)
    = Cert.ReferenceIdeal.Read.val_main_v13 (F := Ideal) (W (Proc.devRef .tc main_arg1)) (W (Proc.devRef .tc main_arg15)) := by
  after_results_simp; rfl

/-- The column 1 / max(count, 1) over the users. -/
theorem h0_v24 : StableHlo.after (hostOps0 (F := Ideal)) W (Proc.devRef .tc main_v24) = invU (W (Proc.devRef .tc main_arg17)) := by
  after_results_simp; rfl

/-- The column 1 / max(count, 1) over the items. -/
theorem h0_v35 : StableHlo.after (hostOps0 (F := Ideal)) W (Proc.devRef .tc main_v35) = invI (W (Proc.devRef .tc main_arg16)) := by
  after_results_simp; rfl

/-- The first layer's scaled sum over the users, before the mean law. -/
theorem h0_v51_raw : StableHlo.after (hostOps0 (F := Ideal)) W (Proc.devRef .tc main_v51)
    = mulf (Cert.ReferenceIdeal.Read.val_main_v27 (F := Ideal) (W (Proc.devRef .tc main_arg1)) (W (Proc.devRef .tc main_arg15)) (W (Proc.devRef .tc main_arg17)))
        (broadcastInDim Cert.ReferenceIdeal.S100000x128 ![0, 1] Cert.ReferenceIdeal.Facts₀.bcast_S100000x1_S100000x128_0_1 (invU (W (Proc.devRef .tc main_arg17)))) := by
  after_results_simp; rfl

/-- The first layer's mean over the users is the reference's. -/
theorem h0_v51 : StableHlo.after (hostOps0 (F := Ideal)) W (Proc.devRef .tc main_v51)
    = Cert.ReferenceIdeal.Read.val_main_v36 (F := Ideal) (W (Proc.devRef .tc main_arg1)) (W (Proc.devRef .tc main_arg15)) (W (Proc.devRef .tc main_arg17)) :=
  (h0_v51_raw W).trans (scaleU_eq _ _)

/-- The first layer's scaled sum over the items, before the mean law. -/
theorem h0_v67_raw : StableHlo.after (hostOps0 (F := Ideal)) W (Proc.devRef .tc main_v67)
    = mulf (Cert.ReferenceIdeal.Read.val_main_v57 (F := Ideal) (W (Proc.devRef .tc main_arg0)) (W (Proc.devRef .tc main_arg14)) (W (Proc.devRef .tc main_arg16)))
        (broadcastInDim Cert.ReferenceIdeal.S50000x128 ![0, 1] Cert.ReferenceIdeal.Facts₀.bcast_S50000x1_S50000x128_0_1 (invI (W (Proc.devRef .tc main_arg16)))) := by
  after_results_simp; rfl

/-- The first layer's mean over the items is the reference's. -/
theorem h0_v67 : StableHlo.after (hostOps0 (F := Ideal)) W (Proc.devRef .tc main_v67)
    = Cert.ReferenceIdeal.Read.val_main_v66 (F := Ideal) (W (Proc.devRef .tc main_arg0)) (W (Proc.devRef .tc main_arg14)) (W (Proc.devRef .tc main_arg16)) :=
  (h0_v67_raw W).trans (scaleI_eq _ _)

/-- A bias vector recast as one row. -/
theorem h0_v68 : StableHlo.after (hostOps0 (F := Ideal)) W (Proc.devRef .tc main_v68)
    = shapeCast S1x128 (W (Proc.devRef .tc main_arg11)) shapeCasts_S128_S1x128 := by
  after_results_simp; rfl

theorem h1_v70 : StableHlo.after (hostOps1 (F := Ideal)) W (Proc.devRef .tc main_v70)
    = shapeCast S1x128 (W (Proc.devRef .tc main_arg10)) shapeCasts_S128_S1x128 := by
  after_results_simp; rfl

theorem h3_v106 : StableHlo.after (hostOps3 (F := Ideal)) W (Proc.devRef .tc main_v106)
    = shapeCast S1x128 (W (Proc.devRef .tc main_arg12)) shapeCasts_S128_S1x128 := by
  after_results_simp; rfl

/-- The result column recast as a vector. -/
theorem h5_v127 : StableHlo.after (hostOps5 (F := Ideal)) W (Proc.devRef .tc main_v127)
    = shapeCast S200000 (W (Proc.devRef .tc main_v126)) shapeCasts_S200000x1_S200000 := by
  after_results_simp; rfl

/-- The second layer's scaled sum over the users, from the first layer's item rows as the stretch finds them. -/
theorem h2_v87 : StableHlo.after (hostOps2 (F := Ideal)) W (Proc.devRef .tc main_v87)
    = mulf (aggU (W (Proc.devRef .tc main_v71)) (W (Proc.devRef .tc main_arg17)))
        (broadcastInDim Cert.ReferenceIdeal.S100000x128 ![0, 1] Cert.ReferenceIdeal.Facts₀.bcast_S100000x1_S100000x128_0_1 (W (Proc.devRef .tc main_v24))) := by
  after_results_simp; rfl

/-- The second layer's scaled sum over the items, from the first layer's user rows as the stretch finds them. -/
theorem h2_v103 : StableHlo.after (hostOps2 (F := Ideal)) W (Proc.devRef .tc main_v103)
    = mulf (aggI (W (Proc.devRef .tc main_v69)) (W (Proc.devRef .tc main_arg16)))
        (broadcastInDim Cert.ReferenceIdeal.S50000x128 ![0, 1] Cert.ReferenceIdeal.Facts₀.bcast_S50000x1_S50000x128_0_1 (W (Proc.devRef .tc main_v35))) := by
  after_results_simp; rfl

theorem h2_v104 : StableHlo.after (hostOps2 (F := Ideal)) W (Proc.devRef .tc main_v104)
    = shapeCast S1x128 (W (Proc.devRef .tc main_arg13)) shapeCasts_S128_S1x128 := by
  after_results_simp; rfl

/-- The second layer's user rows looked up at the labelled pairs. -/
theorem h4_v116 : StableHlo.after (hostOps4 (F := Ideal)) W (Proc.devRef .tc main_v116)
    = pickU (W (Proc.devRef .tc main_v105)) (W (Proc.devRef .tc main_arg18)) := by
  after_results_simp; rfl

/-- The second layer's item rows looked up at the labelled pairs. -/
theorem h4_v125 : StableHlo.after (hostOps4 (F := Ideal)) W (Proc.devRef .tc main_v125)
    = pickI (W (Proc.devRef .tc main_v107)) (W (Proc.devRef .tc main_arg18)) := by
  after_results_simp; rfl

end Cert.KernelIdeal.HostReads

end
-- ==== Proof.RefStages.lean ====
/-
  The stages of the reference set beside the tiled program's pieces, over any argument arrays: each dense layer is
  the layer function of the stage before it (the order of a three-term sum apart), the second layer's means are the
  scaled sums of the first layer's rows, and the rows looked up at the labelled pairs are the second layer's.
-/
import proofs.«109615_j5153960755960_2_alg».proof.Proof.HostReads

set_option maxRecDepth 16384

noncomputable section

namespace Cert.KernelIdeal.RefStages

open Idealize.ShloMosaic Cert.KernelIdeal.HostReads

variable (x0 : (⟨Cert.ReferenceIdeal.S100000x128, .f32⟩ : BufTy).Contents (Elt Ideal)) (x1 : (⟨Cert.ReferenceIdeal.S50000x128, .f32⟩ : BufTy).Contents (Elt Ideal)) (x2 : (⟨Cert.ReferenceIdeal.S128x128, .f32⟩ : BufTy).Contents (Elt Ideal)) (x3 : (⟨Cert.ReferenceIdeal.S128x128, .f32⟩ : BufTy).Contents (Elt Ideal)) (x4 : (⟨Cert.ReferenceIdeal.S128x128, .f32⟩ : BufTy).Contents (Elt Ideal)) (x5 : (⟨Cert.ReferenceIdeal.S128x128, .f32⟩ : BufTy).Contents (Elt Ideal)) (x6 : (⟨Cert.ReferenceIdeal.S128x128, .f32⟩ : BufTy).Contents (Elt Ideal)) (x7 : (⟨Cert.ReferenceIdeal.S128x128, .f32⟩ : BufTy).Contents (Elt Ideal)) (x8 : (⟨Cert.ReferenceIdeal.S128x128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S100000, .i32⟩ : BufTy).Contents (Elt Ideal)) (x15 : (⟨Cert.ReferenceIdeal.S50000, .i32⟩ : BufTy).Contents (Elt Ideal)) (x16 : (⟨Cert.ReferenceIdeal.S2x600000, .i32⟩ : BufTy).Contents (Elt Ideal)) (x17 : (⟨Cert.ReferenceIdeal.S2x600000, .i32⟩ : BufTy).Contents (Elt Ideal)) (x18 : (⟨Cert.ReferenceIdeal.S2x200000, .i32⟩ : BufTy).Contents (Elt Ideal))
variable (h1 : (Cert.ReferenceIdeal.S128).ShapeCasts Cert.ReferenceIdeal.S1x128)

/-- The users after the first layer. -/
theorem stage_u1 : Cert.SageSpec.layer (R := 100000) true (Cert.ReferenceIdeal.Read.val_main_v36 (F := Ideal) x1 x15 x17) (Cert.ReferenceIdeal.Read.val_main_v6 (F := Ideal) x0 x14) x4 x5 (shapeCast Cert.ReferenceIdeal.S1x128 x11 h1)
    = Cert.ReferenceIdeal.Read.val_main_v43 (F := Ideal) x0 x1 x4 x5 x11 x14 x15 x17 :=
  (Cert.SageLaws.layer_relu_eq_host Cert.ReferenceIdeal.dot_S100000x128_S128x128_S100000x128_1_0_0_1_n_n rfl Cert.ReferenceIdeal.Facts₀.bcast_S128_S1x128_1 Cert.ReferenceIdeal.Facts₀.bcast_S1x128_S100000x128_0_1
    ![] Cert.ReferenceIdeal.Facts₀.bcast_S_S100000x128 h1 _ _ x4 x5 x11).trans rfl

/-- The items after the first layer. -/
theorem stage_i1 : Cert.SageSpec.layer (R := 50000) true (Cert.ReferenceIdeal.Read.val_main_v66 (F := Ideal) x0 x14 x16) (Cert.ReferenceIdeal.Read.val_main_v13 (F := Ideal) x1 x15) x2 x3 (shapeCast Cert.ReferenceIdeal.S1x128 x10 h1)
    = Cert.ReferenceIdeal.Read.val_main_v73 (F := Ideal) x0 x1 x2 x3 x10 x14 x15 x16 :=
  (Cert.SageLaws.layer_relu_eq_host Cert.ReferenceIdeal.dot_S50000x128_S128x128_S50000x128_1_0_0_1_n_n rfl Cert.ReferenceIdeal.Facts₀.bcast_S128_S1x128_1 Cert.ReferenceIdeal.Facts₀.bcast_S1x128_S50000x128_0_1
    ![] Cert.ReferenceIdeal.Facts₀.bcast_S_S50000x128 h1 _ _ x2 x3 x10).trans rfl

/-- The second layer's mean over the users: the first layer's item rows summed and scaled. -/
theorem mean2U : mulf (aggU (Cert.ReferenceIdeal.Read.val_main_v73 (F := Ideal) x0 x1 x2 x3 x10 x14 x15 x16) x17) (broadcastInDim Cert.ReferenceIdeal.S100000x128 ![0, 1] Cert.ReferenceIdeal.Facts₀.bcast_S100000x1_S100000x128_0_1 (invU x17))
    = Cert.ReferenceIdeal.Read.val_main_v96 (F := Ideal) x0 x1 x2 x3 x10 x14 x15 x16 x17 :=
  (scaleU_eq _ x17).trans rfl

/-- The second layer's mean over the items: the first layer's user rows summed and scaled. -/
theorem mean2I : mulf (aggI (Cert.ReferenceIdeal.Read.val_main_v43 (F := Ideal) x0 x1 x4 x5 x11 x14 x15 x17) x16) (broadcastInDim Cert.ReferenceIdeal.S50000x128 ![0, 1] Cert.ReferenceIdeal.Facts₀.bcast_S50000x1_S50000x128_0_1 (invI x16))
    = Cert.ReferenceIdeal.Read.val_main_v125 (F := Ideal) x0 x1 x4 x5 x11 x14 x15 x16 x17 :=
  (scaleI_eq _ x16).trans rfl

/-- The users after the second layer. -/
theorem stage_u2 : Cert.SageSpec.layer (R := 100000) false (Cert.ReferenceIdeal.Read.val_main_v96 (F := Ideal) x0 x1 x2 x3 x10 x14 x15 x16 x17) (Cert.ReferenceIdeal.Read.val_main_v43 (F := Ideal) x0 x1 x4 x5 x11 x14 x15 x17) x8 x9 (shapeCast Cert.ReferenceIdeal.S1x128 x13 h1)
    = Cert.ReferenceIdeal.Read.val_main_v102 (F := Ideal) x0 x1 x2 x3 x4 x5 x8 x9 x10 x11 x13 x14 x15 x16 x17 :=
  (Cert.SageLaws.layer_eq_host Cert.ReferenceIdeal.dot_S100000x128_S128x128_S100000x128_1_0_0_1_n_n rfl Cert.ReferenceIdeal.Facts₀.bcast_S128_S1x128_1 Cert.ReferenceIdeal.Facts₀.bcast_S1x128_S100000x128_0_1
    h1 _ _ x8 x9 x13).trans rfl

/-- The items after the second layer. -/
theorem stage_i2 : Cert.SageSpec.layer (R := 50000) false (Cert.ReferenceIdeal.Read.val_main_v125 (F := Ideal) x0 x1 x4 x5 x11 x14 x15 x16 x17) (Cert.ReferenceIdeal.Read.val_main_v73 (F := Ideal) x0 x1 x2 x3 x10 x14 x15 x16) x6 x7 (shapeCast Cert.ReferenceIdeal.S1x128 x12 h1)
    = Cert.ReferenceIdeal.Read.val_main_v131 (F := Ideal) x0 x1 x2 x3 x4 x5 x6 x7 x10 x11 x12 x14 x15 x16 x17 :=
  (Cert.SageLaws.layer_eq_host Cert.ReferenceIdeal.dot_S50000x128_S128x128_S50000x128_1_0_0_1_n_n rfl Cert.ReferenceIdeal.Facts₀.bcast_S128_S1x128_1 Cert.ReferenceIdeal.Facts₀.bcast_S1x128_S50000x128_0_1
    h1 _ _ x6 x7 x12).trans rfl

/-- The user rows at the labelled pairs. -/
theorem pick_u2 : pickU (Cert.ReferenceIdeal.Read.val_main_v102 (F := Ideal) x0 x1 x2 x3 x4 x5 x8 x9 x10 x11 x13 x14 x15 x16 x17) x18 = Cert.ReferenceIdeal.Read.val_main_v140 (F := Ideal) x0 x1 x2 x3 x4 x5 x8 x9 x10 x11 x13 x14 x15 x16 x17 x18 := rfl

/-- The item rows at the labelled pairs. -/
theorem pick_i2 : pickI (Cert.ReferenceIdeal.Read.val_main_v131 (F := Ideal) x0 x1 x2 x3 x4 x5 x6 x7 x10 x11 x12 x14 x15 x16 x17) x18 = Cert.ReferenceIdeal.Read.val_main_v149 (F := Ideal) x0 x1 x2 x3 x4 x5 x6 x7 x10 x11 x12 x14 x15 x16 x17 x18 := rfl

end Cert.KernelIdeal.RefStages

end
-- ==== Proof.LayerTile.lean ====
/-
  One tile of rows of the dense layer, read at an entry. The tile's two products into the zero accumulator (each factor
  first recast to the narrower float format, which is the identity on the extended reals), their sum, the bias row laid
  down the tile, and — for the first two layers — the maximum with zero, read at an entry y of the tile, is the layer of
  the whole arrays at the entry i of the whole matrix, as soon as row y 0 of the two row tiles is row i 0 of the whole
  matrices and column y 1 of the weights and of the bias row is column i 1.
-/
import proofs.«109615_j5153960755960_2_alg».proof.Proof.Gen.KernelIdeal.Frame
import proofs.«109615_j5153960755960_2_alg».proof.Proof.SageSpec

noncomputable section

namespace Cert.KernelIdeal.LayerTile

open Cert.KernelIdeal Cert.KernelIdeal.Gen Idealize.ShloMosaic Idealize.ShloMosaic.ValueIdx

/-- The two offsets of a whole-tile access are zero. -/
theorem zeros2 : (![0, 0] : Fin 2 → Nat) = fun _ => 0 := funext fun a => by fin_cases a <;> rfl

/-- The printed dimension numbers of the tile's product are the plain ones. -/
theorem dot_plain : dot_S5000x128_S128x128_S5000x128_1_0_0_1_n_n = DotDims.plain 5000 128 128 := rfl

variable {R : Nat}

/-- The sum of the two products plus the bias row, at an entry of the tile. -/
theorem affine_apply (x0 x1 : Vec Ideal S5000x128 .f32) (x2 x3 : Vec Ideal S128x128 .f32) (x4 : Vec Ideal S1x128 .f32)
    (mean xd : FVec Ideal ⟨2, ![R, 128]⟩ .f32) (wl wr : FVec Ideal ⟨2, ![128, 128]⟩ .f32) (b : FVec Ideal ⟨2, ![1, 128]⟩ .f32)
    (y : S5000x128.Idx) (i : (⟨2, ![R, 128]⟩ : Shape).Idx)
    (h0 : ∀ k : Fin 128, x0 (ix2 (y 0) k) = mean (ix2 (i 0) k))
    (h1 : ∀ k : Fin 128, x1 (ix2 (y 0) k) = xd (ix2 (i 0) k))
    (h2 : ∀ k : Fin 128, x2 (ix2 k (y 1)) = wl (ix2 k (i 1)))
    (h3 : ∀ k : Fin 128, x3 (ix2 k (y 1)) = wr (ix2 k (i 1)))
    (h4 : x4 (ix2 (0 : Fin 1) (y 1)) = b (ix2 (0 : Fin 1) (i 1))) :
    k2_pay1 (F := Ideal) x0 x1 x2 x3 x4 y = Cert.SageSpec.layer false mean xd wl wr b i := by
  unfold k2_pay1
  show ((matmul (F := Ideal) dot_S5000x128_S128x128_S5000x128_1_0_0_1_n_n none
          (truncf .bf16 (shapeCast S5000x128 x0 shapeCasts_S5000x128_S5000x128) bitsLt_bf16_f32) (truncf .bf16 x2 bitsLt_bf16_f32)
          (constant S5000x128 .f32 0x00000000#32) y : Ideal .f32)
        + (matmul (F := Ideal) dot_S5000x128_S128x128_S5000x128_1_0_0_1_n_n none
          (truncf .bf16 (shapeCast S5000x128 x1 shapeCasts_S5000x128_S5000x128) bitsLt_bf16_f32) (truncf .bf16 x3 bitsLt_bf16_f32)
          (constant S5000x128 .f32 0x00000000#32) y : Ideal .f32))
      + (broadcastTo S5000x128 (shapeCast S1x128 x4 shapeCasts_S1x128_S1x128) broadcasts_S1x128_S5000x128 y : Ideal .f32)
    = (Cert.LibRowTiles.prod mean wl i + Cert.LibRowTiles.prod xd wr i) + b (ix2 (0 : Fin 1) (i 1))
  rw [Cert.LibRowTiles.tile_prod_cast_apply _ dot_plain bitsLt_bf16_f32 shapeCasts_S5000x128_S5000x128 x0 x2 mean wl y i h0 h2,
    Cert.LibRowTiles.tile_prod_cast_apply _ dot_plain bitsLt_bf16_f32 shapeCasts_S5000x128_S5000x128 x1 x3 xd wr y i h1 h3,
    Cert.LibRowTiles.broadcastTo_oneRow_at _ broadcasts_S1x128_S5000x128 y, shapeCast_self, h4]

/-- The same under the maximum with zero. -/
theorem relu_apply (x0 x1 : Vec Ideal S5000x128 .f32) (x2 x3 : Vec Ideal S128x128 .f32) (x4 : Vec Ideal S1x128 .f32)
    (mean xd : FVec Ideal ⟨2, ![R, 128]⟩ .f32) (wl wr : FVec Ideal ⟨2, ![128, 128]⟩ .f32) (b : FVec Ideal ⟨2, ![1, 128]⟩ .f32)
    (y : S5000x128.Idx) (i : (⟨2, ![R, 128]⟩ : Shape).Idx)
    (h0 : ∀ k : Fin 128, x0 (ix2 (y 0) k) = mean (ix2 (i 0) k))
    (h1 : ∀ k : Fin 128, x1 (ix2 (y 0) k) = xd (ix2 (i 0) k))
    (h2 : ∀ k : Fin 128, x2 (ix2 k (y 1)) = wl (ix2 k (i 1)))
    (h3 : ∀ k : Fin 128, x3 (ix2 k (y 1)) = wr (ix2 k (i 1)))
    (h4 : x4 (ix2 (0 : Fin 1) (y 1)) = b (ix2 (0 : Fin 1) (i 1))) :
    k0_pay1 (F := Ideal) x0 x1 x2 x3 x4 y = Cert.SageSpec.layer true mean xd wl wr b i := by
  have e := affine_apply x0 x1 x2 x3 x4 mean xd wl wr b y i h0 h1 h2 h3 h4
  show max (k2_pay1 (F := Ideal) x0 x1 x2 x3 x4 y) (Ideal.ofBits .f32 0x00000000#32)
    = max ((Cert.LibRowTiles.prod mean wl i + Cert.LibRowTiles.prod xd wr i) + b (ix2 (0 : Fin 1) (i 1))) (Ideal.ofBits .f32 0x00000000#32)
  rw [e]
  rfl

/-- The second and the fourth region's payloads are the first and the third's, letter for letter. -/
theorem pay1_eq_pay0 : @k1_pay1 Ideal _ = @k0_pay1 Ideal _ := rfl
theorem pay3_eq_pay2 : @k3_pay1 Ideal _ = @k2_pay1 Ideal _ := rfl

end Cert.KernelIdeal.LayerTile

end
-- ==== Proof.Region0.lean ====
/-
  The first dense layer as one function of whole arrays. The grid has 20 points; point t works on rows 5000·t … 5000·t + 4999
  of the two row operands and of the result, and on the whole of the two weight matrices and of the bias row. What point t
  writes back is therefore rows 5000·t … of the layer of the whole arrays, the 20 blocks of rows tile the 100000 rows, and the
  result array ends as the layer of the arrays the region found.
-/
import proofs.«109615_j5153960755960_2_alg».proof.Proof.Gen.KernelIdeal.Frame
import proofs.«109615_j5153960755960_2_alg».proof.Proof.SageSpec
import proofs.«109615_j5153960755960_2_alg».proof.Proof.LayerTile

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The layer of the arrays as the region finds them. -/
abbrev whole (c : Dev nD) : S100000x128.Idx → Elt Ideal .f32 :=
  Cert.SageSpec.layer (R := 100000) true (V c main_v51) (V c main_v6) (V c main_arg4) (V c main_arg5) (V c main_v68)

/-- The printed index maps, decided over the grid: the two row operands' block and the result's block are block t along
    the rows and block 0 along the columns; the weights' and the bias row's block is always block (0, 0). -/
theorem index_maps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every block of rows is some point's. -/
theorem index_onto : ∀ q0 : Fin 20, ∃ t : Fin cfg0.N, win0_5.index t = ![q0.val, 0] :=
  (by decide +kernel : ∀ q0 : Fin 20, ∃ t : Fin grid0.N, win0_5.index t = ![q0.val, 0])

/-- What point t writes back is block t of the layer of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero LayerTile.zeros2]
  simp only [View.ld_unit_zero (S := S5000x128) LayerTile.zeros2, View.ld_unit_zero (S := S128x128) LayerTile.zeros2,
    View.ld_unit_zero (S := S1x128) LayerTile.zeros2]
  obtain ⟨e0, e1, e2, e3, e4, e5, e6, e7, e8, e9, e10, e11⟩ := index_maps t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.SageSpec.layer (R := 100000) true (V c main_v51) (V c main_v6) (V c main_arg4) (V c main_arg5) (V c main_v68)
        (((cfg0.win 5).blk t).view.emb (ix2 p q))
  refine LayerTile.relu_apply (R := 100000) (iblk0 V c 0 t) (iblk0 V c 1 t) (iblk0 V c 2 t) (iblk0 V c 3 t) (iblk0 V c 4 t)
    (V c main_v51) (V c main_v6) (V c main_arg4) (V c main_arg5) (V c main_v68) (ix2 p q) (((cfg0.win 5).blk t).view.emb (ix2 p q)) ?_ ?_ ?_ ?_ ?_
  · intro k
    show V c main_v51 (((cfg0.win 0).blk t).view.emb (ix2 p k)) = V c main_v51 (ix2 ((((cfg0.win 5).blk t).view.emb (ix2 p q)) 0) k)
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_v6 (((cfg0.win 1).blk t).view.emb (ix2 p k)) = V c main_v6 (ix2 ((((cfg0.win 5).blk t).view.emb (ix2 p q)) 0) k)
    refine congrArg _ (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_arg4 (((cfg0.win 2).blk t).view.emb (ix2 k q)) = V c main_arg4 (ix2 k ((((cfg0.win 5).blk t).view.emb (ix2 p q)) 1))
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k
    show V c main_arg5 (((cfg0.win 3).blk t).view.emb (ix2 k q)) = V c main_arg5 (ix2 k ((((cfg0.win 5).blk t).view.emb (ix2 p q)) 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_v68 (((cfg0.win 4).blk t).view.emb (ix2 (0 : Fin 1) q))
      = V c main_v68 (ix2 (0 : Fin 1) ((((cfg0.win 5).blk t).view.emb (ix2 p q)) 1))
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An entry of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v69).slice (win0_5.rect t)).set ↔ _
  rw [View.set_slice_whole, Rect.mem_set_unit]
  exact Iff.rfl

/-- Row r is in the block of the point whose block index is r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the region is the layer of the arrays the region found. -/
theorem final (c : Dev nD) :
    (dat0 (F := Ideal) V c).arrAt 5 cfg0.N
      = Cert.SageSpec.layer (R := 100000) true (V c main_v51) (V c main_v6) (V c main_arg4) (V c main_arg5) (V c main_v68) :=
  (dat0 V c).arrAt_eq_of_cover 5 (whole V c) (fun t _ => flushed_eq V c t) cover

end Cert.KernelIdeal.Region0

end
-- ==== Proof.Region1.lean ====
/-
  The second dense layer as one function of whole arrays. The grid has 10 points; point t works on rows 5000·t … 5000·t + 4999
  of the two row operands and of the result, and on the whole of the two weight matrices and of the bias row. What point t
  writes back is therefore rows 5000·t … of the layer of the whole arrays, the 10 blocks of rows tile the 50000 rows, and the
  result array ends as the layer of the arrays the region found.
-/
import proofs.«109615_j5153960755960_2_alg».proof.Proof.Gen.KernelIdeal.Frame
import proofs.«109615_j5153960755960_2_alg».proof.Proof.SageSpec
import proofs.«109615_j5153960755960_2_alg».proof.Proof.LayerTile

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The layer of the arrays as the region finds them. -/
abbrev whole (c : Dev nD) : S50000x128.Idx → Elt Ideal .f32 :=
  Cert.SageSpec.layer (R := 50000) true (V c main_v67) (V c main_v13) (V c main_arg2) (V c main_arg3) (V c main_v70)

/-- The printed index maps, decided over the grid: the two row operands' block and the result's block are block t along
    the rows and block 0 along the columns; the weights' and the bias row's block is always block (0, 0). -/
theorem index_maps : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every block of rows is some point's. -/
theorem index_onto : ∀ q0 : Fin 10, ∃ t : Fin cfg1.N, win1_5.index t = ![q0.val, 0] :=
  (by decide +kernel : ∀ q0 : Fin 10, ∃ t : Fin grid1.N, win1_5.index t = ![q0.val, 0])

/-- What point t writes back is block t of the layer of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero LayerTile.zeros2]
  simp only [View.ld_unit_zero (S := S5000x128) LayerTile.zeros2, View.ld_unit_zero (S := S128x128) LayerTile.zeros2,
    View.ld_unit_zero (S := S1x128) LayerTile.zeros2]
  obtain ⟨e0, e1, e2, e3, e4, e5, e6, e7, e8, e9, e10, e11⟩ := index_maps t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.SageSpec.layer (R := 50000) true (V c main_v67) (V c main_v13) (V c main_arg2) (V c main_arg3) (V c main_v70)
        (((cfg1.win 5).blk t).view.emb (ix2 p q))
  rw [LayerTile.pay1_eq_pay0]
  refine LayerTile.relu_apply (R := 50000) (iblk1 V c 0 t) (iblk1 V c 1 t) (iblk1 V c 2 t) (iblk1 V c 3 t) (iblk1 V c 4 t)
    (V c main_v67) (V c main_v13) (V c main_arg2) (V c main_arg3) (V c main_v70) (ix2 p q) (((cfg1.win 5).blk t).view.emb (ix2 p q)) ?_ ?_ ?_ ?_ ?_
  · intro k
    show V c main_v67 (((cfg1.win 0).blk t).view.emb (ix2 p k)) = V c main_v67 (ix2 ((((cfg1.win 5).blk t).view.emb (ix2 p q)) 0) k)
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    show V c main_v13 (((cfg1.win 1).blk t).view.emb (ix2 p k)) = V c main_v13 (ix2 ((((cfg1.win 5).blk t).view.emb (ix2 p q)) 0) k)
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · intro k
    show V c main_arg2 (((cfg1.win 2).blk t).view.emb (ix2 k q)) = V c main_arg2 (ix2 k ((((cfg1.win 5).blk t).view.emb (ix2 p q)) 1))
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · intro k
    show V c main_arg3 (((cfg1.win 3).blk t).view.emb (ix2 k q)) = V c main_arg3 (ix2 k ((((cfg1.win 5).blk t).view.emb (ix2 p q)) 1))
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show V c main_v70 (((cfg1.win 4).blk t).view.emb (ix2 (0 : Fin 1) q))
      = V c main_v70 (ix2 (0 : Fin 1) ((((cfg1.win 5).blk t).view.emb (ix2 p q)) 1))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An entry of the result array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v71).slice (win1_5.rect t)).set ↔ _
  rw [View.set_slice_whole, Rect.mem_set_unit]
  exact Iff.rfl

/-- Row r is in the block of the point whose block index is r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region is the layer of the arrays the region found. -/
theorem final (c : Dev nD) :
    (dat1 (F := Ideal) V c).arrAt 5 cfg1.N
      = Cert.SageSpec.layer (R := 50000) true (V c main_v67) (V c main_v13) (V c main_arg2) (V c main_arg3) (V c main_v70) :=
  (dat1 V c).arrAt_eq_of_cover 5 (whole V c) (fun t _ => flushed_eq V c t) cover

end Cert.KernelIdeal.Region1

end
-- ==== Proof.Region2.lean ====
/-
  The third dense layer as one function of whole arrays. The grid has 20 points; point t works on rows 5000·t … 5000·t + 4999
  of the two row operands and of the result, and on the whole of the two weight matrices and of the bias row. What point t
  writes back is therefore rows 5000·t … of the layer of the whole arrays, the 20 blocks of rows tile the 100000 rows, and the
  result array ends as the layer of the arrays the region found.
-/
import proofs.«109615_j5153960755960_2_alg».proof.Proof.Gen.KernelIdeal.Frame
import proofs.«109615_j5153960755960_2_alg».proof.Proof.SageSpec
import proofs.«109615_j5153960755960_2_alg».proof.Proof.LayerTile

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The layer of the arrays as the region finds them. -/
abbrev whole (c : Dev nD) : S100000x128.Idx → Elt Ideal .f32 :=
  Cert.SageSpec.layer (R := 100000) false (V c main_v87) (V c main_v69) (V c main_arg8) (V c main_arg9) (V c main_v104)

/-- The printed index maps, decided over the grid: the two row operands' block and the result's block are block t along
    the rows and block 0 along the columns; the weights' and the bias row's block is always block (0, 0). -/
theorem index_maps : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 19 :=
  (by decide +kernel : ∀ t : Fin grid2.N, _)

/-- Every block of rows is some point's. -/
theorem index_onto : ∀ q0 : Fin 20, ∃ t : Fin cfg2.N, win2_5.index t = ![q0.val, 0] :=
  (by decide +kernel : ∀ q0 : Fin 20, ∃ t : Fin grid2.N, win2_5.index t = ![q0.val, 0])

/-- What point t writes back is block t of the layer of the whole arrays. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero LayerTile.zeros2]
  simp only [View.ld_unit_zero (S := S5000x128) LayerTile.zeros2, View.ld_unit_zero (S := S128x128) LayerTile.zeros2,
    View.ld_unit_zero (S := S1x128) LayerTile.zeros2]
  obtain ⟨e0, e1, e2, e3, e4, e5, e6, e7, e8, e9, e10, e11⟩ := index_maps t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = Cert.SageSpec.layer (R := 100000) false (V c main_v87) (V c main_v69) (V c main_arg8) (V c main_arg9) (V c main_v104)
        (((cfg2.win 5).blk t).view.emb (ix2 p q))
  refine LayerTile.affine_apply (R := 100000) (iblk2 V c 0 t) (iblk2 V c 1 t) (iblk2 V c 2 t) (iblk2 V c 3 t) (iblk2 V c 4 t)
    (V c main_v87) (V c main_v69) (V c main_arg8) (V c main_arg9) (V c main_v104) (ix2 p q) (((cfg2.win 5).blk t).view.emb (ix2 p q)) ?_ ?_ ?_ ?_ ?_
  · intro k
    show V c main_v87 (((cfg2.win 0).blk t).view.emb (ix2 p k)) = V c main_v87 (ix2 ((((cfg2.win 5).blk t).view.emb (ix2 p q)) 0) k)
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · intro k
    show V c main_v69 (((cfg2.win 1).blk t).view.emb (ix2 p k)) = V c main_v69 (ix2 ((((cfg2.win 5).blk t).view.emb (ix2 p q)) 0) k)
    refine congrArg _ (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · intro k
    show V c main_arg8 (((cfg2.win 2).blk t).view.emb (ix2 k q)) = V c main_arg8 (ix2 k ((((cfg2.win 5).blk t).view.emb (ix2 p q)) 1))
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  · intro k
    show V c main_arg9 (((cfg2.win 3).blk t).view.emb (ix2 k q)) = V c main_arg9 (ix2 k ((((cfg2.win 5).blk t).view.emb (ix2 p q)) 1))
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  · show V c main_v104 (((cfg2.win 4).blk t).view.emb (ix2 (0 : Fin 1) q))
      = V c main_v104 (ix2 (0 : Fin 1) ((((cfg2.win 5).blk t).view.emb (ix2 p q)) 1))
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An entry of the result array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v105).slice (win2_5.rect t)).set ↔ _
  rw [View.set_slice_whole, Rect.mem_set_unit]
  exact Iff.rfl

/-- Row r is in the block of the point whose block index is r / 5000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The result array after the region is the layer of the arrays the region found. -/
theorem final (c : Dev nD) :
    (dat2 (F := Ideal) V c).arrAt 5 cfg2.N
      = Cert.SageSpec.layer (R := 100000) false (V c main_v87) (V c main_v69) (V c main_arg8) (V c main_arg9) (V c main_v104) :=
  (dat2 V c).arrAt_eq_of_cover 5 (whole V c) (fun t _ => flushed_eq V c t) cover

end Cert.KernelIdeal.Region2

end
-- ==== Proof.Region3.lean ====
/-
  The fourth dense layer as one function of whole arrays. The grid has 10 points; point t works on rows 5000·t … 5000·t + 4999
  of the two row operands and of the result, and on the whole of the two weight matrices and of the bias row. What point t
  writes back is therefore rows 5000·t … of the layer of the whole arrays, the 10 blocks of rows tile the 50000 rows, and the
  result array ends as the layer of the arrays the region found.
-/
import proofs.«109615_j5153960755960_2_alg».proof.Proof.Gen.KernelIdeal.Frame
import proofs.«109615_j5153960755960_2_alg».proof.Proof.SageSpec
import proofs.«109615_j5153960755960_2_alg».proof.Proof.LayerTile

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The layer of the arrays as the region finds them. -/
abbrev whole (c : Dev nD) : S50000x128.Idx → Elt Ideal .f32 :=
  Cert.SageSpec.layer (R := 50000) false (V c main_v103) (V c main_v71) (V c main_arg6) (V c main_arg7) (V c main_v106)

/-- The printed index maps, decided over the grid: the two row operands' block and the result's block are block t along
    the rows and block 0 along the columns; the weights' and the bias row's block is always block (0, 0). -/
theorem index_maps : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every block of rows is some point's. -/
theorem index_onto : ∀ q0 : Fin 10, ∃ t : Fin cfg3.N, win3_5.index t = ![q0.val, 0] :=
  (by decide +kernel : ∀ q0 : Fin 10, ∃ t : Fin grid3.N, win3_5.index t = ![q0.val, 0])

/-- What point t writes back is block t of the layer of the whole arrays. -/
theorem flushed_eq (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero LayerTile.zeros2]
  simp only [View.ld_unit_zero (S := S5000x128) LayerTile.zeros2, View.ld_unit_zero (S := S128x128) LayerTile.zeros2,
    View.ld_unit_zero (S := S1x128) LayerTile.zeros2]
  obtain ⟨e0, e1, e2, e3, e4, e5, e6, e7, e8, e9, e10, e11⟩ := index_maps t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = Cert.SageSpec.layer (R := 50000) false (V c main_v103) (V c main_v71) (V c main_arg6) (V c main_arg7) (V c main_v106)
        (((cfg3.win 5).blk t).view.emb (ix2 p q))
  rw [LayerTile.pay3_eq_pay2]
  refine LayerTile.affine_apply (R := 50000) (iblk3 V c 0 t) (iblk3 V c 1 t) (iblk3 V c 2 t) (iblk3 V c 3 t) (iblk3 V c 4 t)
    (V c main_v103) (V c main_v71) (V c main_arg6) (V c main_arg7) (V c main_v106) (ix2 p q) (((cfg3.win 5).blk t).view.emb (ix2 p q)) ?_ ?_ ?_ ?_ ?_
  · intro k
    show V c main_v103 (((cfg3.win 0).blk t).view.emb (ix2 p k)) = V c main_v103 (ix2 ((((cfg3.win 5).blk t).view.emb (ix2 p q)) 0) k)
    refine congrArg _ (funext fun a => Fin.ext ?_)
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * k.val = k.val; omega
  · intro k
    show V c main_v71 (((cfg3.win 1).blk t).view.emb (ix2 p k)) = V c main_v71 (ix2 ((((cfg3.win 5).blk t).view.emb (ix2 p q)) 0) k)
    refine congrArg _ (funext fun a => Fin.ext ?_)
    match a with
    | ⟨0, _⟩ => show win3_1.index t (0 : Fin 2) * 5000 + 1 * p.val = win3_5.index t (0 : Fin 2) * 5000 + 1 * p.val; omega
    | ⟨1, _⟩ => show win3_1.index t (1 : Fin 2) * 128 + 1 * k.val = k.val; omega
  · intro k
    show V c main_arg6 (((cfg3.win 2).blk t).view.emb (ix2 k q)) = V c main_arg6 (ix2 k ((((cfg3.win 5).blk t).view.emb (ix2 p q)) 1))
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * q.val = win3_5.index t (1 : Fin 2) * 128 + 1 * q.val; omega
  · intro k
    show V c main_arg7 (((cfg3.win 3).blk t).view.emb (ix2 k q)) = V c main_arg7 (ix2 k ((((cfg3.win 5).blk t).view.emb (ix2 p q)) 1))
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = win3_5.index t (1 : Fin 2) * 128 + 1 * q.val; omega
  · show V c main_v106 (((cfg3.win 4).blk t).view.emb (ix2 (0 : Fin 1) q))
      = V c main_v106 (ix2 (0 : Fin 1) ((((cfg3.win 5).blk t).view.emb (ix2 p q)) 1))
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega

/-- An entry of the result array is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v107).slice (win3_5.rect t)).set ↔ _
  rw [View.set_slice_whole, Rect.mem_set_unit]
  exact Iff.rfl

/-- Row r is in the block of the point whose block index is r / 5000. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := index_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The result array after the region is the layer of the arrays the region found. -/
theorem final (c : Dev nD) :
    (dat3 (F := Ideal) V c).arrAt 5 cfg3.N
      = Cert.SageSpec.layer (R := 50000) false (V c main_v103) (V c main_v71) (V c main_arg6) (V c main_arg7) (V c main_v106) :=
  (dat3 V c).arrAt_eq_of_cover 5 (whole V c) (fun t _ => flushed_eq V c t) cover

end Cert.KernelIdeal.Region3

end
-- ==== Proof.Region4.lean ====
/-
  The classifier region. Each of its 25 grid points takes a tile of 8000 rows of the two feature matrices and stores, as a
  column of 8000 entries, the inner product of matching rows: the product of the two tiles entry by entry, summed over the
  128 lanes with no initial term, viewed as a column. The tiles follow one another down the rows and together fill the
  200000 rows, so the array the region leaves is the row-by-row inner product of the two whole matrices.
-/
import proofs.«109615_j5153960755960_2_alg».proof.Proof.Gen.KernelIdeal.Frame
import proofs.«109615_j5153960755960_2_alg».proof.Proof.SageSpec

noncomputable section

namespace Cert.KernelIdeal.Region4

open Cert.KernelIdeal Cert.KernelIdeal.Gen Idealize.ShloMosaic Idealize.ShloMosaic.TcCoe Idealize.ShloMosaic.ValueIdx

/-! ## The tile's stored value at a row -/

/-- A vector of length a viewed as a column: entry (p, q) of the column is entry p of the vector. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- The sum over the lanes of a tile, read at a row: the 128 entries of that row added up, nothing else. -/
theorem laneSum_apply (src : FVec Ideal S8000x128 .f32) (h : S8000x128.Reduces [1] S8000) (hφ : FKind.Formats .f32)
    (hacc : (0x00000000#32 : BitVec 32) = 0x00000000#32) (p : Fin 8000) :
    multiReduction (F := Ideal) .add [1] S8000 src 0x00000000#32 h hφ hacc (ix1 p) = ∑ k : Fin 128, src (ix2 p k) := by
  refine (Ideal.multiReduction_add_single src 0x00000000#32 h hφ hacc (ix1 p)).trans ?_
  refine Finset.sum_congr rfl fun k _ => ?_
  exact congrArg src (funext fun a => Fin.ext (by match a with | ⟨0, _⟩ => rfl | ⟨1, _⟩ => rfl))

/-- The body's stored value at row p: the inner product of row p of its two tiles. -/
theorem pay_apply (x0 x1 : Vec Ideal S8000x128 .f32) (p : Fin 8000) (q : Fin 1) :
    k4_pay1 (F := Ideal) x0 x1 (ix2 p q) = ∑ k : Fin 128, x0 (ix2 p k) * x1 (ix2 p k) := by
  unfold k4_pay1
  show shapeCast S8000x1 (multiReduction (F := Ideal) .add [1] S8000 (mulf (shapeCast S8000x128 x0 shapeCasts_S8000x128_S8000x128) (shapeCast S8000x128 x1 shapeCasts_S8000x128_S8000x128)) 0x00000000#32 reduces_S8000x128_S8000 (.inl rfl) rfl) shapeCasts_S8000_S8000x1 (ix2 p q) = _
  rw [shapeCast_a_a1_apply, laneSum_apply, shapeCast_self, shapeCast_self]
  rfl

/-- The stored value at an entry y of the tile is the row-by-row inner product of two whole matrices at the entry i, as
    soon as row y 0 of the two tiles is row i 0 of the whole matrices. -/
theorem pay_eq_dotRows {R : Nat} (x0 x1 : Vec Ideal S8000x128 .f32) (fu fi : FVec Ideal ⟨2, ![R, 128]⟩ .f32)
    (y : S8000x1.Idx) (i : (⟨2, ![R, 1]⟩ : Shape).Idx)
    (h0 : ∀ k : Fin 128, x0 (ix2 (y 0) k) = fu (ix2 (i 0) k))
    (h1 : ∀ k : Fin 128, x1 (ix2 (y 0) k) = fi (ix2 (i 0) k)) :
    k4_pay1 (F := Ideal) x0 x1 y = Cert.SageSpec.dotRows fu fi i := by
  obtain ⟨p, q, rfl⟩ : ∃ (p : Fin 8000) (q : Fin 1), y = ix2 p q := ⟨y 0, y 1, eq_ix2 y⟩
  rw [pay_apply]
  unfold Cert.SageSpec.dotRows
  exact Finset.sum_congr rfl fun k _ => by rw [← h0 k, ← h1 k]

/-! ## From the tiles to the array -/

/-- The two offsets of a whole-tile access are zero. -/
theorem zeros2 : (![0, 0] : Fin 2 → Nat) = fun _ => 0 := funext fun a => by fin_cases a <;> rfl

/-- The index maps over the grid: the two input tiles sit at the row block of the output tile, every tile at column block
    zero, and the row block stays below 25. -/
theorem index_facts : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (0 : Fin 2) ≤ 24
    ∧ win4_2.index t (1 : Fin 2) = 0 :=
  (by decide +kernel : ∀ t : Fin grid4.N, _)

/-- Every row block is some point's. -/
theorem index_onto : ∀ q0 : Fin 25, ∃ t : Fin cfg4.N, win4_2.index t = ![q0.val, 0] :=
  (by decide +kernel : ∀ q0 : Fin 25, ∃ t : Fin grid4.N, win4_2.index t = ![q0.val, 0])

variable (V : (c : Dev nD) → (b : Ref sig .tc) → Buf (Elt Ideal) ((c : Thread nD τ).loc b))

/-- What point t writes back is tile t of the row-by-row inner product of the two matrices the region finds. -/
theorem flushed_eq (c : Dev nD) (t : Fin cfg4.N) :
    (dat4 (F := Ideal) V c).flushed 2 t
      = ((cfg4.win 2).blk t).view.read (Elt Ideal) (Cert.SageSpec.dotRows (R := 200000) (V c main_v116) (V c main_v125)) := by
  show (cfg4.win 2).cut (grid4.coords t) ((dat4 V c).after 2 t) = _
  rw [after4_2]
  unfold out4_2
  rw [View.canon_unit_zero zeros2]
  simp only [View.ld_unit_zero (S := S8000x128) zeros2]
  obtain ⟨e0, e1, e2, e3, e4, e5⟩ := index_facts t
  funext j
  show k4_pay1 (F := Ideal) (iblk4 V c 0 t) (iblk4 V c 1 t) j
    = Cert.SageSpec.dotRows (R := 200000) (V c main_v116) (V c main_v125) (((cfg4.win 2).blk t).view.emb j)
  refine pay_eq_dotRows _ _ _ _ j _ (fun k => ?_) (fun k => ?_)
  · show V c main_v116 (((cfg4.win 0).blk t).view.emb (ix2 (j 0) k)) = V c main_v116 (ix2 ((((cfg4.win 2).blk t).view.emb j) 0) k)
    refine congrArg (V c main_v116) (funext fun a => Fin.ext ?_)
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 128 + 1 * k.val = k.val; omega
  · show V c main_v125 (((cfg4.win 1).blk t).view.emb (ix2 (j 0) k)) = V c main_v125 (ix2 ((((cfg4.win 2).blk t).view.emb j) 0) k)
    refine congrArg (V c main_v125) (funext fun a => Fin.ext ?_)
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 128 + 1 * k.val = k.val; omega

/-- An entry of the column is in point t's tile iff each coordinate is in the tile's range on its axis. -/
theorem mem_blk (t : Fin cfg4.N) (i : S200000x1.Idx) :
    i ∈ ((cfg4.win 2).blk t).view.set ↔ ∀ a : Fin 2, win4_2.index t a * S8000x1.size a ≤ (i a).val ∧ (i a).val < win4_2.index t a * S8000x1.size a + S8000x1.size a := by
  show i ∈ ((View.whole main_v126).slice (win4_2.rect t)).set ↔ _
  rw [View.set_slice_whole, Rect.mem_set_unit]
  exact Iff.rfl

/-- Every entry of the column is in the tile of the point whose row block is its row divided by 8000. -/
theorem cover (i : S200000x1.Idx) : ∃ t : Fin cfg4.N, (cfg4.win 2).flush t = true ∧ i ∈ ((cfg4.win 2).blk t).view.set := by
  have hi0 : (i 0).val < 200000 := (i 0).isLt
  have hi1 : (i 1).val < 1 := (i 1).isLt
  obtain ⟨t, ht⟩ := index_onto ⟨(i 0).val / 8000, by omega⟩
  have q0 : win4_2.index t (0 : Fin 2) = (i 0).val / 8000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 1 ≤ (i 1).val ∧ (i 1).val < win4_2.index t (1 : Fin 2) * 1 + 1; omega

/-- The column the region leaves: the row-by-row inner product of the two matrices it finds. -/
theorem final (c : Dev nD) :
    (Gen.dat4 (F := Ideal) V c).arrAt 2 cfg4.N
      = Cert.SageSpec.dotRows (R := 200000) (V c main_v116) (V c main_v125) :=
  (dat4 (F := Ideal) V c).arrAt_eq_of_cover 2 _ (fun t _ => flushed_eq V c t) cover

end Cert.KernelIdeal.Region4

end
-- ==== Proof.TailLaw.lean ====
/-
  The classifier's last step, two ways. One sums, over the 128 lanes of each row, the entry-by-entry product of two
  matrices, starting from zero, and yields a vector with one entry per row. The other takes the row-by-row inner product
  kept as a column and views the column as a vector. Both are, at row p, the sum over k of fu(p,k)·fi(p,k): the zero the
  first starts from adds nothing. The number of rows is a variable.
-/
import proofs.«109615_j5153960755960_2_alg».proof.Proof.SageSpec
import Idealize.ShloMosaic.PureOps.Ideal.Laws
import Idealize.ShloMosaic.Lib.ValueIdx
import Idealize.ShloMosaic.Lib.Pipeline.Value

noncomputable section

namespace Cert.TailLaw

open Idealize.ShloMosaic Idealize.ShloMosaic.ValueIdx

/-- A column of a entries viewed as a vector: entry p of the vector is entry (p, 0) of the column. -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- The sum over the lanes from a given start, read at a row: the start plus the 128 entries of that row. -/
theorem rowSum_apply {R : Nat} (h' : (⟨2, ![R, 128]⟩ : Shape).ReducesTo [1] ⟨1, ![R]⟩) (x : FVec Ideal ⟨2, ![R, 128]⟩ .f32)
    (init : EReal) (p : Fin R) :
    Ideal.hostReduceAdd h' x init (ix1 p) = init + ∑ k : Fin 128, x (ix2 p k) := by
  have h : (⟨2, ![R, 128]⟩ : Shape).Reduces [1] ⟨1, ![R]⟩ := ⟨h'.1, Nat.one_pos, h'.2⟩
  rw [Ideal.hostReduceAdd_single h' h]
  refine congrArg (_ + ·) (Finset.sum_congr rfl fun k _ => ?_)
  exact congrArg x (funext fun a => Fin.ext (by match a with | ⟨0, _⟩ => rfl | ⟨1, _⟩ => rfl))

/-- The lane sum of the product from zero is the row-by-row inner product viewed as a vector. -/
theorem reduce_eq {R : Nat} (h' : (⟨2, ![R, 128]⟩ : Shape).ReducesTo [1] ⟨1, ![R]⟩) (hS : 0 < (⟨0, ![]⟩ : Shape).numel)
    (hc : (⟨2, ![R, 1]⟩ : Shape).ShapeCasts ⟨1, ![R]⟩) (fu fi : FVec Ideal ⟨2, ![R, 128]⟩ .f32) :
    Host.reduceAdd (F := Ideal) (mulf fu fi) (constant (F := Ideal) ⟨0, ![]⟩ .f32 0x00000000#32) h' hS
      = shapeCast ⟨1, ![R]⟩ (Cert.SageSpec.dotRows fu fi) hc := by
  funext j
  obtain ⟨p, rfl⟩ : ∃ p : Fin R, j = ix1 p := ⟨j 0, eq_ix1 j⟩
  rw [shapeCast_a1_a_apply]
  simp only [Host.reduceAdd, Ideal.hostReduceAdd_def]
  rw [rowSum_apply, constant_apply, Ideal.ofBits_zero_f32, zero_add]
  rfl

end Cert.TailLaw

end
-- ==== Proof.Chain.lean ====
/-
  The tiled program's result as a function of its arguments. Following the contents of the buffers from the launch through
  the eleven segments: the node rows and the first layer's means come from the first stretch of host operations, each
  dense-layer region leaves the layer function of the arrays it finds, the second layer's means are the scaled sums of
  the first layer's rows, the classifier region leaves the row-by-row inner products of the rows looked up at the
  labelled pairs, and the last reshape lays that column out as a vector. Stage by stage these are the reference's
  stages, so the result is the reference's result term of the same arguments.
-/
import proofs.«109615_j5153960755960_2_alg».proof.Proof.Gen.KernelIdeal.Frame
import proofs.«109615_j5153960755960_2_alg».proof.Proof.Gen.ReferenceIdeal.Read
import proofs.«109615_j5153960755960_2_alg».proof.Proof.Hops
import proofs.«109615_j5153960755960_2_alg».proof.Proof.HostReads
import proofs.«109615_j5153960755960_2_alg».proof.Proof.RefStages
import proofs.«109615_j5153960755960_2_alg».proof.Proof.Region0
import proofs.«109615_j5153960755960_2_alg».proof.Proof.Region1
import proofs.«109615_j5153960755960_2_alg».proof.Proof.Region2
import proofs.«109615_j5153960755960_2_alg».proof.Proof.Region3
import proofs.«109615_j5153960755960_2_alg».proof.Proof.Region4
import proofs.«109615_j5153960755960_2_alg».proof.Proof.TailLaw

set_option maxRecDepth 16384

noncomputable section

namespace Cert.KernelIdeal.Chain

open Cert.KernelIdeal Cert.KernelIdeal.Gen Idealize.ShloMosaic Idealize.ShloMosaic.TcCoe Idealize.SL.Sem
open Cert.KernelIdeal.HostReads

variable (m : (ℓ : Loc nD τ sig) → Buf (Elt Ideal) ℓ) (ρ : Dev nD → PrngReg) (c : Dev nD)

/-- Region 0 leaves the users' rows after the first layer. -/
theorem u1_eq : W2 (F := Ideal) m ρ c (Proc.devRef .tc main_v69) = Cert.ReferenceIdeal.Read.val_main_v43 (F := Ideal) (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg14)) (m ((c : Thread nD τ).loc main_arg15)) (m ((c : Thread nD τ).loc main_arg17)) := by
  have e1 : V1 (F := Ideal) m ρ c main_v51 = Cert.ReferenceIdeal.Read.val_main_v36 (F := Ideal) (m ((c : Thread nD τ).loc main_arg1)) (m ((c : Thread nD τ).loc main_arg15)) (m ((c : Thread nD τ).loc main_arg17)) := h0_v51 (W0 m ρ c)
  have e2 : V1 (F := Ideal) m ρ c main_v6 = Cert.ReferenceIdeal.Read.val_main_v6 (F := Ideal) (m ((c : Thread nD τ).loc main_arg0)) (m ((c : Thread nD τ).loc main_arg14)) := h0_v6 (W0 m ρ c)
  have e3 : V1 (F := Ideal) m ρ c main_arg4 = (m ((c : Thread nD τ).loc main_arg4)) := Hops.W1_arg4 m ρ c
  have e4 : V1 (F := Ideal) m ρ c main_arg5 = (m ((c : Thread nD τ).loc main_arg5)) := Hops.W1_arg5 m ρ c
  have e5 : V1 (F := Ideal) m ρ c main_v68 = shapeCast S1x128 (m ((c : Thread nD τ).loc main_arg11)) shapeCasts_S128_S1x128 := h0_v68 (W0 m ρ c)
  rw [Hops.W2_v69 m ρ c, Region0.final (V1 m ρ) c, e1, e2, e3, e4, e5]
  exact RefStages.stage_u1 (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg14)) (m ((c : Thread nD τ).loc main_arg15)) (m ((c : Thread nD τ).loc main_arg17)) shapeCasts_S128_S1x128

/-- Region 1 leaves the items' rows after the first layer. -/
theorem i1_eq : W4 (F := Ideal) m ρ c (Proc.devRef .tc main_v71) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg14)) (m ((c : Thread nD τ).loc main_arg15)) (m ((c : Thread nD τ).loc main_arg16)) := by
  have e1 : V3 (F := Ideal) m ρ c main_v67 = Cert.ReferenceIdeal.Read.val_main_v66 (F := Ideal) (m ((c : Thread nD τ).loc main_arg0)) (m ((c : Thread nD τ).loc main_arg14)) (m ((c : Thread nD τ).loc main_arg16)) :=
    (Hops.W3_v67 m ρ c).trans (h0_v67 (W0 m ρ c))
  have e2 : V3 (F := Ideal) m ρ c main_v13 = Cert.ReferenceIdeal.Read.val_main_v13 (F := Ideal) (m ((c : Thread nD τ).loc main_arg1)) (m ((c : Thread nD τ).loc main_arg15)) :=
    (Hops.W3_v13 m ρ c).trans (h0_v13 (W0 m ρ c))
  have e3 : V3 (F := Ideal) m ρ c main_arg2 = (m ((c : Thread nD τ).loc main_arg2)) := Hops.W3_arg2 m ρ c
  have e4 : V3 (F := Ideal) m ρ c main_arg3 = (m ((c : Thread nD τ).loc main_arg3)) := Hops.W3_arg3 m ρ c
  have e5 : V3 (F := Ideal) m ρ c main_v70 = shapeCast S1x128 (m ((c : Thread nD τ).loc main_arg10)) shapeCasts_S128_S1x128 :=
    (h1_v70 (W2 m ρ c)).trans (by rw [Hops.W2_arg10 m ρ c])
  rw [Hops.W4_v71 m ρ c, Region1.final (V3 m ρ) c, e1, e2, e3, e4, e5]
  exact RefStages.stage_i1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg14)) (m ((c : Thread nD τ).loc main_arg15)) (m ((c : Thread nD τ).loc main_arg16)) shapeCasts_S128_S1x128

/-- The second layer's mean over the users, as region 2 finds it. -/
theorem mean2U_eq : V5 (F := Ideal) m ρ c main_v87 = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg14)) (m ((c : Thread nD τ).loc main_arg15)) (m ((c : Thread nD τ).loc main_arg16)) (m ((c : Thread nD τ).loc main_arg17)) := by
  have e := h2_v87 (W4 m ρ c)
  rw [i1_eq m ρ c, Hops.W4_arg17 m ρ c, Hops.W4_v24 m ρ c, show W1 (F := Ideal) m ρ c (Proc.devRef .tc main_v24) = invU (m ((c : Thread nD τ).loc main_arg17)) from h0_v24 (W0 m ρ c)] at e
  exact e.trans (RefStages.mean2U (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg14)) (m ((c : Thread nD τ).loc main_arg15)) (m ((c : Thread nD τ).loc main_arg16)) (m ((c : Thread nD τ).loc main_arg17)))

/-- Region 2 leaves the users' rows after the second layer. -/
theorem u2_eq : W6 (F := Ideal) m ρ c (Proc.devRef .tc main_v105) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) := by
  have e2 : V5 (F := Ideal) m ρ c main_v69 = Cert.ReferenceIdeal.Read.val_main_v43 (F := Ideal) (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg14)) (m ((c : Thread nD τ).loc main_arg15)) (m ((c : Thread nD τ).loc main_arg17)) := (Hops.W5_v69 m ρ c).trans (u1_eq m ρ c)
  have e3 : V5 (F := Ideal) m ρ c main_arg8 = (m ((c : Thread nD τ).loc main_arg8)) := Hops.W5_arg8 m ρ c
  have e4 : V5 (F := Ideal) m ρ c main_arg9 = (m ((c : Thread nD τ).loc main_arg9)) := Hops.W5_arg9 m ρ c
  have e5 : V5 (F := Ideal) m ρ c main_v104 = shapeCast S1x128 (m ((c : Thread nD τ).loc main_arg13)) shapeCasts_S128_S1x128 :=
    (h2_v104 (W4 m ρ c)).trans (by rw [Hops.W4_arg13 m ρ c])
  rw [Hops.W6_v105 m ρ c, Region2.final (V5 m ρ) c, mean2U_eq m ρ c, e2, e3, e4, e5]
  exact RefStages.stage_u2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) shapeCasts_S128_S1x128

/-- The second layer's mean over the items, as region 3 finds it. -/
theorem mean2I_eq : V7 (F := Ideal) m ρ c main_v103 = Cert.ReferenceIdeal.Read.val_main_v125 (F := Ideal) (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg14)) (m ((c : Thread nD τ).loc main_arg15)) (m ((c : Thread nD τ).loc main_arg16)) (m ((c : Thread nD τ).loc main_arg17)) := by
  have e := h2_v103 (W4 m ρ c)
  rw [Hops.W4_v69 m ρ c, u1_eq m ρ c, Hops.W4_arg16 m ρ c, Hops.W4_v35 m ρ c, show W1 (F := Ideal) m ρ c (Proc.devRef .tc main_v35) = invI (m ((c : Thread nD τ).loc main_arg16)) from h0_v35 (W0 m ρ c)] at e
  exact (Hops.W7_v103 m ρ c).trans (e.trans (RefStages.mean2I (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg14)) (m ((c : Thread nD τ).loc main_arg15)) (m ((c : Thread nD τ).loc main_arg16)) (m ((c : Thread nD τ).loc main_arg17))))

/-- Region 3 leaves the items' rows after the second layer. -/
theorem i2_eq : W8 (F := Ideal) m ρ c (Proc.devRef .tc main_v107) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) (m ((c : Thread nD τ).loc main_arg17)) := by
  have e2 : V7 (F := Ideal) m ρ c main_v71 = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg14)) (m ((c : Thread nD τ).loc main_arg15)) (m ((c : Thread nD τ).loc main_arg16)) := (Hops.W7_v71 m ρ c).trans (i1_eq m ρ c)
  have e3 : V7 (F := Ideal) m ρ c main_arg6 = (m ((c : Thread nD τ).loc main_arg6)) := Hops.W7_arg6 m ρ c
  have e4 : V7 (F := Ideal) m ρ c main_arg7 = (m ((c : Thread nD τ).loc main_arg7)) := Hops.W7_arg7 m ρ c
  have e5 : V7 (F := Ideal) m ρ c main_v106 = shapeCast S1x128 (m ((c : Thread nD τ).loc main_arg12)) shapeCasts_S128_S1x128 :=
    (h3_v106 (W6 m ρ c)).trans (by rw [Hops.W6_arg12 m ρ c])
  rw [Hops.W8_v107 m ρ c, Region3.final (V7 m ρ) c, mean2I_eq m ρ c, e2, e3, e4, e5]
  exact RefStages.stage_i2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) (m ((c : Thread nD τ).loc main_arg17)) shapeCasts_S128_S1x128

/-- The users' rows at the labelled pairs, as the classifier region finds them. -/
theorem fu_eq : V9 (F := Ideal) m ρ c main_v116 = Cert.ReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have e := h4_v116 (W8 m ρ c)
  rw [Hops.W8_v105 m ρ c, u2_eq m ρ c, Hops.W8_arg18 m ρ c] at e
  exact e.trans (RefStages.pick_u2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)))

/-- The items' rows at the labelled pairs, as the classifier region finds them. -/
theorem fi_eq : V9 (F := Ideal) m ρ c main_v125 = Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) (m ((c : Thread nD τ).loc main_arg17)) (m ((c : Thread nD τ).loc main_arg18)) := by
  have e := h4_v125 (W8 m ρ c)
  rw [i2_eq m ρ c, Hops.W8_arg18 m ρ c] at e
  exact e.trans (RefStages.pick_i2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) (m ((c : Thread nD τ).loc main_arg17)) (m ((c : Thread nD τ).loc main_arg18)))

/-- The result buffer at the last boundary is the reference's result term of the launch contents of the arguments. -/
theorem result_eq' : W11 (F := Ideal) m ρ c (Proc.devRef .tc main_v127) = Cert.ReferenceIdeal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have e := h5_v127 (W10 m ρ c)
  rw [Hops.W10_v126 m ρ c, Region4.final (V9 m ρ) c, fu_eq m ρ c, fi_eq m ρ c] at e
  refine e.trans ?_
  exact (Cert.TailLaw.reduce_eq (R := 200000) Cert.ReferenceIdeal.Facts₀.reducesTo_S200000x128_S200000_d1 Cert.ReferenceIdeal.Facts₀.h_S_ shapeCasts_S200000x1_S200000 _ _).symm.trans rfl

/-- The same, with the core named as the claims name it. -/
theorem result_eq (m : (ℓ : Loc nD τ sig) → Buf (Elt Ideal) ℓ) (ρ : Dev nD → PrngReg) (c : Dev nD) :
    W11 (F := Ideal) m ρ c (Proc.devRef .tc main_v127)
      = Cert.ReferenceIdeal.Read.val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  result_eq' m ρ c

end Cert.KernelIdeal.Chain

end
-- ==== Proof.lean ====
/-
  The five statements of this certificate and their proofs. Three say that a program runs to its end without a fault and
  leaves its nineteen argument arrays as it found them: the tiled program as printed, the same program read on the
  extended reals, and the reference read on the extended reals. The fourth says that reading the tiled program on the
  extended reals rewrote none of its operations. The fifth says that on the extended reals, from memories that agree on
  the arguments, the tiled program and the reference end with the same vector of 200000 scores.

  Three laws join the two programs: a neighbourhood mean taken as the sum of the rows scaled by the reciprocal of
  max(count, 1) is the quotient of that sum by max(count, 1), which is at least one; the dense layer's three-term sum is the
  reference's in another order; and a row sum that starts from zero is the row sum. With them the result buffer of the
  tiled program, followed from the launch through its segments, is the reference's result term of the same arguments.
-/
import proofs.«109615_j5153960755960_2_alg».proof.Defs
import proofs.«109615_j5153960755960_2_alg».proof.Proof.Gen.Kernel
import proofs.«109615_j5153960755960_2_alg».proof.Proof.Gen.Kernel.Skeleton
import proofs.«109615_j5153960755960_2_alg».proof.Proof.Gen.Kernel.Launch
import proofs.«109615_j5153960755960_2_alg».proof.Proof.Gen.Kernel.Points
import proofs.«109615_j5153960755960_2_alg».proof.Proof.Gen.Kernel.Frame
import proofs.«109615_j5153960755960_2_alg».proof.Proof.Gen.KernelIdeal
import proofs.«109615_j5153960755960_2_alg».proof.Proof.Gen.KernelIdeal.Skeleton
import proofs.«109615_j5153960755960_2_alg».proof.Proof.Gen.KernelIdeal.Launch
import proofs.«109615_j5153960755960_2_alg».proof.Proof.Gen.KernelIdeal.Points
import proofs.«109615_j5153960755960_2_alg».proof.Proof.Gen.KernelIdeal.Frame
import proofs.«109615_j5153960755960_2_alg».proof.Proof.Gen.ReferenceIdeal
import proofs.«109615_j5153960755960_2_alg».proof.Proof.Gen.ReferenceIdeal.Run
import proofs.«109615_j5153960755960_2_alg».proof.Proof.Gen.ReferenceIdeal.Read
import proofs.«109615_j5153960755960_2_alg».proof.Proof.Gen.Pre_finite_inputs
import proofs.«109615_j5153960755960_2_alg».proof.Proof.KernelRun
import proofs.«109615_j5153960755960_2_alg».proof.Proof.Chain
import Idealize.ShloMosaic.Adequacy
import Idealize.ShloMosaic.Init

noncomputable section

namespace Cert.Proof

open Idealize.ShloMosaic Idealize.SL.Sem

/-- The tiled program as printed runs and leaves its arguments unchanged. -/
theorem frame_kernel : Cert.frame_Kernel := fun m ρ _ => Cert.Kernel.Gen.frame m ρ

/-- The tiled program on the extended reals runs and leaves its arguments unchanged. -/
theorem frame_kernelIdeal : Cert.frame_KernelIdeal := fun m ρ _ => Cert.KernelIdeal.Gen.frame m ρ

/-- The reference on the extended reals runs and leaves its arguments unchanged: its run with the result's clause dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the tiled program was rewritten for the extended reals: there is nothing to restate. -/
theorem preserves : Cert.preserves_Kernel_KernelIdeal := trivial

/-- On the extended reals the tiled program's result buffer ends at the contents of its last boundary and the reference's
    at its result term of its own arguments; the arguments agree, and the last boundary's contents are that term of the
    tiled program's arguments. -/
theorem algebraic : Cert.algebraic_KernelIdeal_ReferenceIdeal := by
  intro m ρ m' ρ' _ hagree
  refine ⟨fun c => Cert.KernelIdeal.Gen.W11 (F := Ideal) m ρ c (Proc.devRef .tc Cert.KernelIdeal.main_v127),
    Cert.KernelIdeal.KRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v151_eq]
  obtain ⟨a0, a1, a2, a3, a4, a5, a6, a7, a8, a9, a10, a11, a12, a13, a14, a15, a16, a17, a18⟩ := hagree c
  rw [a0, a1, a2, a3, a4, a5, a6, a7, a8, a9, a10, a11, a12, a13, a14, a15, a16, a17, a18]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
